-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v31 : BitVec 32 := Scalar.muli arg1 c400_i32
  let v32 : Index := Scalar.indexCast v31
  let c0_16 : Index := 0#32
  ![v32.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  shapeCasts_S400x64_S400x64 : S400x64.ShapeCasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x64_S10000x64_1_0_0_1_n_n_wf : DotDims.WF S10000x64 S64x64 S10000x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .i1⟩
  | .hbm, ⟨14, _⟩ => ⟨S_, .f32⟩
  | .hbm, ⟨15, _⟩ => ⟨S10000x64, .f32⟩
  | .hbm, ⟨16, _⟩ => ⟨S10000x64, .i1⟩
  | .hbm, ⟨17, _⟩ => ⟨S_, .f32⟩
  | .hbm, ⟨18, _⟩ => ⟨S_, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .i1⟩
  | .hbm, ⟨34, _⟩ => ⟨S_, .f32⟩
  | .hbm, ⟨35, _⟩ => ⟨S10000x64, .f32⟩
  | .hbm, ⟨36, _⟩ => ⟨S10000x64, .i1⟩
  | .hbm, ⟨37, _⟩ => ⟨S_, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S_, .f32⟩
  | .hbm, ⟨43, _⟩ => ⟨S10000x64, .f32⟩
  | .hbm, ⟨44, _⟩ => ⟨S10000x64, .f32⟩
  | .hbm, ⟨45, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v11 : Ref sig .tc := ⟨.hbm, 45, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KB.Base.lean ====
/-
  The schedule of the two-layer kernel in closed form. The grid has 2 × 25 = 50 points, point t = (layer, row block)
  = (t / 25, t % 25). Four guarded parts: the first support x·W1 is computed at point 0 only; rows
  [400·(t % 25), 400·(t % 25) + 400) of the hidden activations are computed at the layer-0 points t < 25; the second
  support hid·W2 at point 25 only; the result's row block t − 25 at the layer-1 points t ≥ 25. The result window is
  untouched, and not written back, throughout layer 0.
-/
import proofs.«132794_g33578054320522_cont_8to1_b_1871_28_alg».proof.Proof.Gen.Kernel.Frame
import proofs.«132794_g33578054320522_cont_8to1_b_1871_28_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first guard (layer = 0 and row block = 0), as the body computes it from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second guard (layer = 0). -/
abbrev cond2 (i : grid0.Coords) : Prop := k0_cond2 i = 1#1
/-- The third guard (layer = 1 and row block = 0). -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The fourth guard (layer = 1). -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The row offset of the hidden activations' slab at a point: 400 times the row block. -/
theorem off1_eq : ∀ t : Fin cfg0.N, k0_off1 (grid0.coords t) = ![400 * (t.val % 25), 0] :=
  (by decide +kernel : ∀ t : Fin grid0.N, k0_off1 (grid0.coords t) = ![400 * (t.val % 25), 0])

/-- The inputs are never idle; the result window is idle, and not written back, exactly in layer 0. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, t.val < 25 → cfg0.idle 6 (grid0.coords t) = true := by decide +kernel
theorem noFlush6 : ∀ t : Fin cfg0.N, t.val < 25 → (cfg0.win 6).flush t = false := by decide +kernel
theorem live6 : ∀ t : Fin cfg0.N, 25 ≤ t.val → cfg0.idle 6 (grid0.coords t) = false := by decide +kernel
theorem flush6 : ∀ t : Fin cfg0.N, 25 ≤ t.val → (cfg0.win 6).flush t = true := by decide +kernel

/-- Each window's current staging memref at point `t`, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The two carried buffers: the current support, and the hidden activations. -/
abbrev scA : Memref sig .tc .vmem S10000x64 .f32 := Memref.whole cc0_scratch0
abbrev scB : Memref sig .tc .vmem S10000x64 .f32 := Memref.whole cc0_scratch1

/-- The region's invariant with the two carried buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Hand

end
-- ==== Proof.KB.Slab.lean ====
/-
  Reading back the buffers the body stores into. A whole-buffer load of contents `X` reads `X`; a store of a 400-row
  block `w` at row offset `o` into a [10000, 64] buffer holding `sb` leaves `slab o sb w`: rows [o, o + 400) hold
  `w`, every other row keeps `sb`; a whole-buffer store leaves its payload.
-/
import proofs.«132794_g33578054320522_cont_8to1_b_1871_28_alg».proof.Proof.KB.Base
import Idealize.ShloMosaic.Lib.WritesUnit
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- Rows [o, o + 400) of `sb` replaced by the 400-row block `w`. -/
def slab (o : Nat) (sb : Vec F S10000x64 .f32) (w : Vec F S400x64 .f32) : Vec F S10000x64 .f32 :=
  fun j => if h : o ≤ (j 0).val ∧ (j 0).val < o + 400 then w (ix2 (⟨(j 0).val - o, by omega⟩ : Fin 400) (⟨(j 1).val, (j 1).isLt⟩ : Fin 64)) else sb j

theorem slab_of_mem (o : Nat) (sb : Vec F S10000x64 .f32) (w : Vec F S400x64 .f32) (p : Fin 10000) (q : Fin 64)
    (h : o ≤ p.val ∧ p.val < o + 400) : slab o sb w (ix2 p q) = w (ix2 (⟨p.val - o, by omega⟩ : Fin 400) q) := by
  unfold slab; rw [dif_pos h]

theorem slab_of_not_mem (o : Nat) (sb : Vec F S10000x64 .f32) (w : Vec F S400x64 .f32) (p : Fin 10000) (q : Fin 64)
    (h : ¬(o ≤ p.val ∧ p.val < o + 400)) : slab o sb w (ix2 p q) = sb (ix2 p q) := by
  unfold slab; rw [dif_neg h]

/-- The two zero offsets, spelt as a vector, are the zero function. -/
theorem zero2 : (![0, 0] : Fin 2 → ℕ) = fun _ => 0 := by
  funext a; match a with | ⟨0, _⟩ => rfl | ⟨1, _⟩ => rfl

/-- A whole-buffer load reads the contents. -/
theorem readAt_whole_unread {S : Shape} (M : Memref sig .tc .vmem S .f32) (hM : M.IsWhole) (X : Vec F S .f32)
    (off : Fin S.rank → ℕ) (hoff : off = fun _ => 0) (inb : ∀ a, off a + S.size a ≤ S.size a) :
    View.readAt (Elt F) M.view (Rect.unit (s := S) off S.size inb).toLoadRect (hM.unread X) = X := by
  rw [View.readAt_eq_ld, hM.read_unread, View.ld_unit_zero hoff]

/-- A store of a 400-row block at row offset `o`, read back whole. -/
theorem read_slab (v : View sig .tc .vmem S10000x64 .f32) (f : v.ty.Contents (Elt F)) (off : Fin 2 → ℕ) (o : ℕ) (hoff : off = ![o, 0])
    (inb : ∀ a, off a + S400x64.size a ≤ S10000x64.size a) (w : Vec F S400x64 .f32) :
    v.read (Elt F) (v.writes (Elt F) f [(⟨Rect.unit (s := S10000x64) off S400x64.size inb, w⟩ : View.Piece (Elt F) S10000x64 .f32)])
      = slab o (v.read (Elt F) f) w := by
  funext j
  unfold slab
  by_cases h : o ≤ (j 0).val ∧ (j 0).val < o + 400
  · rw [dif_pos h]
    exact View.read_writes_cons_rows_of_mem v f inb w [] j
      (ix2 (⟨(j 0).val - o, by omega⟩ : Fin 400) (⟨(j 1).val, (j 1).isLt⟩ : Fin 64)) hoff
      (by show (j 0).val = o + ((j 0).val - o); omega) rfl
  · rw [dif_neg h]
    exact (View.read_writes_cons_rows_of_not_mem (W := 400) v f inb w [] j hoff rfl (by omega)).trans (by rw [View.writes_nil])

/-- A whole-buffer store, read back whole, is its payload. -/
theorem read_whole_store {S : Shape} (v : View sig .tc .vmem S .f32) (f : v.ty.Contents (Elt F))
    (off : Fin S.rank → ℕ) (hoff : off = fun _ => 0) (inb : ∀ a, off a + S.size a ≤ S.size a) (w : Vec F S .f32)
    (L : List (View.Piece (Elt F) S .f32)) :
    v.read (Elt F) (v.writes (Elt F) f ((⟨Rect.unit (s := S) off S.size inb, w⟩ : View.Piece (Elt F) S .f32) :: L)) = w := by
  subst hoff
  funext y
  exact View.read_writes_cons_unit_of_mem v f inb w L y y rfl (fun a => (Nat.zero_add _).symm)

end Cert.Kernel.Hand

end
-- ==== Proof.KB.RunA.lean ====
/-
  The body at the first point: the first and second guarded parts run. The first stores the product x·W1 over the whole
  support buffer; the second reads it back (so it sees that product), and stores elu(adjacency block · support + bias)
  as rows [o, o + 400) of the hidden activations' buffer, o the point's row offset.
-/
import proofs.«132794_g33578054320522_cont_8to1_b_1871_28_alg».proof.Proof.KB.Slab

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

set_option maxHeartbeats 1000000 in
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : cond1 i) (hc2 : cond2 i) (hc3 : ¬cond3 i) (hc4 : ¬cond4 i)
    (x0 : Vec F S400x10000 .f32) (x1 : Vec F S10000x128 .f32) (x2 : Vec F S128x64 .f32) (x3 : Vec F S1x64 .f32) (sb : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ owns (c : Thread nD τ) arg10 fullShare sb
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (k0_pay1 x1 x2) ∗ owns (c : Thread nD τ) arg10 fullShare (slab ((k0_off1 i) 0) sb (k0_pay2 x0 (k0_pay1 x1 x2) x3))) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f1, %hf1, H1⟩, ⟨%f2, %hf2, H2⟩, ⟨%f3, %hf3, H3⟩, ⟨%da, %fa, -, HA⟩, ⟨%fb, %hfb, HB⟩, Hk⟩
  obtain rfl := harg2.eq_unread hf0; obtain rfl := harg3.eq_unread hf1; obtain rfl := harg4.eq_unread hf2; obtain rfl := harg5.eq_unread hf3; obtain rfl := harg10.eq_unread hfb
  sl_exec (disch := first | exact hc1 | exact hc2 | exact hc3 | exact hc4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HA]
  · iexists _; isplitr
    swap; · iexact HA
    ipureintro
    sl_unfold_run_names
    rw [readAt_whole_unread arg3 harg3 x1 _ zero2, readAt_whole_unread arg4 harg4 x2 _ zero2]
    exact read_whole_store arg9.view _ _ zero2 _ _ _
  iexists _; isplitr
  swap; · iexact HB
  ipureintro
  sl_unfold_run_names
  rw [View.readCov_unit_zero arg9.view zero2, readAt_whole_unread arg2 harg2 x0 _ zero2, readAt_whole_unread arg3 harg3 x1 _ zero2,
    readAt_whole_unread arg4 harg4 x2 _ zero2, readAt_whole_unread arg5 harg5 x3 _ zero2]
  exact (read_slab arg10.view _ (k0_off1 i) _ rfl _ _).trans (by rw [hfb]; rfl)

end Cert.Kernel.Hand

end
-- ==== Proof.KB.RunB.lean ====
/-
  The body at a layer-0 point other than the first: only the second guarded part runs. It reads the adjacency row block,
  the support and the bias row, and stores elu(adjacency block · support + bias) as rows [o, o + 400) of the hidden
  activations' buffer, o the point's row offset; everything else is left as found.
-/
import proofs.«132794_g33578054320522_cont_8to1_b_1871_28_alg».proof.Proof.KB.Slab

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

set_option maxHeartbeats 1000000 in
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : cond2 i) (hc3 : ¬cond3 i) (hc4 : ¬cond4 i)
    (x0 : Vec F S400x10000 .f32) (x3 : Vec F S1x64 .f32) (sa sb : Vec F S10000x64 .f32) (E : Set ℕ) (K : PUnit → sProp 𝕄) :
    iprop(owns (c : Thread nD τ) arg2 fullShare x0 ∗ owns (c : Thread nD τ) arg5 fullShare x3 ∗ owns (c : Thread nD τ) arg9 fullShare sa ∗ owns (c : Thread nD τ) arg10 fullShare sb
      ∗ (iprop(owns (c : Thread nD τ) arg2 fullShare x0 ∗ owns (c : Thread nD τ) arg5 fullShare x3 ∗ owns (c : Thread nD τ) arg9 fullShare sa ∗ owns (c : Thread nD τ) arg10 fullShare (slab ((k0_off1 i) 0) sb (k0_pay2 x0 sa x3))) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f3, %hf3, H3⟩, ⟨%fa, %hfa, HA⟩, ⟨%fb, %hfb, HB⟩, Hk⟩
  obtain rfl := harg2.eq_unread hf0; obtain rfl := harg5.eq_unread hf3; obtain rfl := harg9.eq_unread hfa; obtain rfl := harg10.eq_unread hfb
  sl_exec (disch := first | exact hc1 | exact hc2 | exact hc3 | exact hc4)
  sl_step
  iapply Hk
  isplitl [H0]
  · iexists _; isplitr; · ipureintro; exact hf0
    iexact H0
  isplitl [H3]
  · iexists _; isplitr; · ipureintro; exact hf3
    iexact H3
  isplitl [HA]
  · iexists _; isplitr; · ipureintro; exact hfa
    iexact HA
  iexists _; isplitr
  swap; · iexact HB
  ipureintro
  rw [readAt_whole_unread arg2 harg2 x0 _ zero2, readAt_whole_unread arg9 harg9 sa _ zero2, readAt_whole_unread arg5 harg5 x3 _ zero2]
  exact (read_slab arg10.view _ (k0_off1 i) _ rfl _ _).trans (by rw [hfb]; rfl)

end Cert.Kernel.Hand

end
-- ==== Proof.KB.RunC.lean ====
/-
  The body at the first layer-1 point: the third and fourth guarded parts run. The third reads the whole hidden
  activations and stores their product with W2 over the whole support buffer; the fourth reads that back, and stores
  elu(adjacency block · support + bias) into the result window's buffer, whatever that held.
-/
import proofs.«132794_g33578054320522_cont_8to1_b_1871_28_alg».proof.Proof.KB.Slab

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

set_option maxHeartbeats 1000000 in
theorem runC (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : ¬cond2 i) (hc3 : cond3 i) (hc4 : cond4 i)
    (x0 : Vec F S400x10000 .f32) (x4 : Vec F S64x64 .f32) (x5 : Vec F S1x64 .f32) (sb : Vec F S10000x64 .f32) (E : Set ℕ) (K : PUnit → sProp 𝕄) :
    iprop(owns (c : Thread nD τ) arg2 fullShare x0 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare sb
      ∗ (iprop(owns (c : Thread nD τ) arg2 fullShare x0 ∗ owns (c : Thread nD τ) arg6 fullShare x4 ∗ owns (c : Thread nD τ) arg7 fullShare x5 ∗ owns (c : Thread nD τ) arg8 fullShare (k0_pay4 x0 (k0_pay3 sb x4) x5) ∗ owns (c : Thread nD τ) arg9 fullShare (k0_pay3 sb x4) ∗ owns (c : Thread nD τ) arg10 fullShare sb) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f4, %hf4, H4⟩, ⟨%f5, %hf5, H5⟩, ⟨%d8, %f8, -, H8⟩, ⟨%da, %fa, -, HA⟩, ⟨%fb, %hfb, HB⟩, Hk⟩
  obtain rfl := harg2.eq_unread hf0; obtain rfl := harg6.eq_unread hf4; obtain rfl := harg7.eq_unread hf5; obtain rfl := harg10.eq_unread hfb
  sl_exec (disch := first | exact hc1 | exact hc2 | exact hc3 | exact hc4)
  sl_step
  iapply Hk
  isplitl [H0]
  · iexists _; isplitr; · ipureintro; exact hf0
    iexact H0
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_run_names
    rw [View.readCov_unit_zero arg9.view zero2, readAt_whole_unread arg2 harg2 x0 _ zero2, readAt_whole_unread arg7 harg7 x5 _ zero2,
      readAt_whole_unread arg10 harg10 sb _ zero2, readAt_whole_unread arg6 harg6 x4 _ zero2]
    exact read_whole_store arg8.view _ _ zero2 _ _ _
  isplitl [HA]
  · iexists _; isplitr
    swap; · iexact HA
    ipureintro
    sl_unfold_run_names
    rw [readAt_whole_unread arg10 harg10 sb _ zero2, readAt_whole_unread arg6 harg6 x4 _ zero2]
    exact read_whole_store arg9.view _ _ zero2 _ _ _
  iexists _; isplitr; · ipureintro; exact hfb
  iexact HB

end Cert.Kernel.Hand

end
-- ==== Proof.KB.RunD.lean ====
/-
  The body at a layer-1 point other than the first: only the fourth guarded part runs. It reads the adjacency row block,
  the support and the bias row, and stores elu(adjacency block · support + bias) into the result window's buffer,
  whatever that held; everything else is left as found.
-/
import proofs.«132794_g33578054320522_cont_8to1_b_1871_28_alg».proof.Proof.KB.Slab

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

set_option maxHeartbeats 1000000 in
theorem runD (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : ¬cond2 i) (hc3 : ¬cond3 i) (hc4 : cond4 i)
    (x0 : Vec F S400x10000 .f32) (x5 : Vec F S1x64 .f32) (sa : Vec F S10000x64 .f32) (E : Set ℕ) (K : PUnit → sProp 𝕄) :
    iprop(owns (c : Thread nD τ) arg2 fullShare x0 ∗ owns (c : Thread nD τ) arg7 fullShare x5 ∗ (∃ d, owns (c : Thread nD τ) arg8 fullShare d) ∗ owns (c : Thread nD τ) arg9 fullShare sa
      ∗ (iprop(owns (c : Thread nD τ) arg2 fullShare x0 ∗ owns (c : Thread nD τ) arg7 fullShare x5 ∗ owns (c : Thread nD τ) arg8 fullShare (k0_pay4 x0 sa x5) ∗ owns (c : Thread nD τ) arg9 fullShare sa) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f5, %hf5, H5⟩, ⟨%d8, %f8, -, H8⟩, ⟨%fa, %hfa, HA⟩, Hk⟩
  obtain rfl := harg2.eq_unread hf0; obtain rfl := harg7.eq_unread hf5; obtain rfl := harg9.eq_unread hfa
  sl_exec (disch := first | exact hc1 | exact hc2 | exact hc3 | exact hc4)
  sl_step
  iapply Hk
  isplitl [H0]
  · iexists _; isplitr; · ipureintro; exact hf0
    iexact H0
  isplitl [H5]
  · iexists _; isplitr; · ipureintro; exact hf5
    iexact H5
  isplitl [H8]
  · iexists _; isplitr
    swap; · iexact H8
    ipureintro
    rw [readAt_whole_unread arg2 harg2 x0 _ zero2, readAt_whole_unread arg9 harg9 sa _ zero2, readAt_whole_unread arg7 harg7 x5 _ zero2]
    exact read_whole_store arg8.view _ _ zero2 _ _ _
  iexists _; isplitr; · ipureintro; exact hfa
  iexact HA

end Cert.Kernel.Hand

end
-- ==== Proof.KB.Contents.lean ====
/-
  What the two carried buffers and the result window hold, as functions of the argument arrays' blocks.
  `sup1C`: the first support x·W1 (the product of the whole x and W1 windows).
  `hidC`: the hidden activations, row p computed at the layer-0 point p / 400 from that point's adjacency row block,
  the first support and the first bias row, at row p % 400 of the block.
  `sup2C`: the second support hid·W2.
  `outC t`: the result's row block at a layer-1 point t, from that point's adjacency row block, the second support and
  the second bias row.
-/
import proofs.«132794_g33578054320522_cont_8to1_b_1871_28_alg».proof.Proof.KB.Base
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N50 : cfg0.N = 50 := N_0

/-- The grid's first point, and the first point of the second layer. -/
abbrev t0 : Fin cfg0.N := ⟨0, by rw [N50]; omega⟩
abbrev t25 : Fin cfg0.N := ⟨25, by rw [N50]; omega⟩
/-- The layer-0 point that computes row `p` of the hidden activations. -/
abbrev tRow (p : Fin 10000) : Fin cfg0.N := ⟨p.val / 400, by rw [N50]; have := p.isLt; omega⟩

/-- The first support. -/
def sup1C (c : Dev nD) : Vec F S10000x64 .f32 := k0_pay1 (iblk m c 1 t0) (iblk m c 2 t0)

/-- The hidden activations. -/
def hidC (c : Dev nD) : Vec F S10000x64 .f32 := fun j =>
  k0_pay2 (iblk m c 0 (tRow ⟨(j 0).val, (j 0).isLt⟩)) (sup1C m c) (iblk m c 3 (tRow ⟨(j 0).val, (j 0).isLt⟩))
    (ix2 (⟨(j 0).val % 400, Nat.mod_lt _ (by omega)⟩ : Fin 400) (⟨(j 1).val, (j 1).isLt⟩ : Fin 64))

/-- The second support. -/
def sup2C (c : Dev nD) : Vec F S10000x64 .f32 := k0_pay3 (hidC m c) (iblk m c 4 t25)

/-- The result's row block at point `t`. -/
def outC (c : Dev nD) (t : Fin cfg0.N) : Vec F S400x64 .f32 := k0_pay4 (iblk m c 0 t) (sup2C m c) (iblk m c 5 t)

theorem hidC_apply (c : Dev nD) (p : Fin 10000) (q : Fin 64) :
    hidC m c (ix2 p q) = k0_pay2 (iblk m c 0 (tRow p)) (sup1C m c) (iblk m c 3 (tRow p)) (ix2 (⟨p.val % 400, Nat.mod_lt _ (by omega)⟩ : Fin 400) q) := rfl

end Cert.Kernel.Hand

end
-- ==== Proof.KB.Dats.lean ====
/-
  The proof data of the kernel's one pipeline and its body obligation. The region's invariant follows the two carried
  buffers point by point: before the first point they hold anything; after layer-0 point n the support buffer holds
  x·W1 and the hidden activations' buffer agrees with the hidden activations on the rows [0, 400·(n + 1)) computed so far;
  from the first layer-1 point on the support buffer holds hid·W2 and the other buffer the whole hidden activations.
  After the body at a point each input window's buffer holds its block, and (in layer 1) the result window's buffer
  that point's row block of the result. The body at any point is one of four runs, chosen by the point's position.
-/
import proofs.«132794_g33578054320522_cont_8to1_b_1871_28_alg».proof.Proof.KB.RunA
import proofs.«132794_g33578054320522_cont_8to1_b_1871_28_alg».proof.Proof.KB.RunB
import proofs.«132794_g33578054320522_cont_8to1_b_1871_28_alg».proof.Proof.KB.RunC
import proofs.«132794_g33578054320522_cont_8to1_b_1871_28_alg».proof.Proof.KB.RunD
import proofs.«132794_g33578054320522_cont_8to1_b_1871_28_alg».proof.Proof.KB.Contents

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- `sb` agrees with the hidden activations on the rows below `400 · n`. -/
def Agree (c : Dev nD) (n : ℕ) (sb : Vec F S10000x64 .f32) : Prop :=
  ∀ (p : Fin 10000) (q : Fin 64), p.val < 400 * n → sb (ix2 p q) = hidC m c (ix2 p q)

/-- The row offset of a layer-0 point's slab. -/
theorem off1_lo (t : Fin cfg0.N) (ht : t.val < 25) : k0_off1 (grid0.coords t) 0 = 400 * t.val := by
  rw [off1_eq t]; show 400 * (t.val % 25) = 400 * t.val; rw [Nat.mod_eq_of_lt ht]

/-- Storing a layer-0 point's slab extends the agreement by that point's 400 rows. -/
theorem agree_step (c : Dev nD) (t : Fin cfg0.N) (ht : t.val < 25) (sb : Vec F S10000x64 .f32) (h : Agree m c t.val sb) :
    Agree m c (t.val + 1) (slab (k0_off1 (grid0.coords t) 0) sb (k0_pay2 (iblk m c 0 t) (sup1C m c) (iblk m c 3 t))) := by
  intro p q hp
  rw [off1_lo t ht]
  by_cases hm : 400 * t.val ≤ p.val ∧ p.val < 400 * t.val + 400
  · rw [slab_of_mem _ _ _ p q hm, hidC_apply]
    have e : t = tRow p := Fin.ext (by show t.val = p.val / 400; omega)
    subst e
    refine congrArg _ ?_
    refine congrArg (fun a : Fin 400 => ix2 a q) (Fin.ext ?_)
    show p.val - 400 * (p.val / 400) = p.val % 400
    omega
  · rw [slab_of_not_mem _ _ _ p q hm]
    exact h p q (by omega)

/-- Agreement on all 25 slabs is equality. -/
theorem agree_all (c : Dev nD) (sb : Vec F S10000x64 .f32) (h : Agree m c 25 sb) : sb = hidC m c := by
  funext j
  rw [eq_ix2 j]
  exact h ⟨(j 0).val, (j 0).isLt⟩ ⟨(j 1).val, (j 1).isLt⟩ (by have h : (j 0).val < 10000 := (j 0).isLt; show (j 0).val < 400 * 25; omega)

/-- The region's invariant before position `n`. -/
def PhiS (c : Dev nD) : (n : ℕ) → n ≤ cfg0.N → sProp 𝕄
  | 0, _ => Pipeline.ΦA spec0 c
  | n + 1, _ =>
    if n + 1 ≤ 25 then
      iprop(iprop(owns (c : Thread nD τ) scA fullShare (sup1C m c) ∗ (∃ sb, ⌜Agree m c (n + 1) sb⌝ ∗ owns (c : Thread nD τ) scB fullShare sb)) ∗ (∃ r, prngReg c r))
    else
      iprop(iprop(owns (c : Thread nD τ) scA fullShare (sup2C m c) ∗ owns (c : Thread nD τ) scB fullShare (hidC m c)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (hz : n ≠ 0) (hl : n ≤ 25) :
    PhiS m c n h = iprop(iprop(owns (c : Thread nD τ) scA fullShare (sup1C m c) ∗ (∃ sb, ⌜Agree m c n sb⌝ ∗ owns (c : Thread nD τ) scB fullShare sb)) ∗ (∃ r, prngReg c r)) := by
  cases n with
  | zero => exact absurd rfl hz
  | succ n => exact if_pos hl

theorem PhiS_hi (c : Dev nD) (n : ℕ) (h : n ≤ cfg0.N) (hl : 25 < n) :
    PhiS m c n h = iprop(iprop(owns (c : Thread nD τ) scA fullShare (sup2C m c) ∗ owns (c : Thread nD τ) scB fullShare (hidC m c)) ∗ (∃ r, prngReg c r)) := by
  cases n with
  | zero => exact absurd hl (by omega)
  | succ n => exact if_neg (by omega)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outC m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6_hi (c : Dev nD) (t : Fin cfg0.N) (h : 25 ≤ t.val) : (dats m 0 c).leavesExact 6 t = owns (c : Thread nD τ) (ms6 t) fullShare (outC m c t) := by
  unfold Dat.leavesExact; rw [live6 t h, after_6]

end Cert.Kernel.Hand

end
-- ==== Proof.KB.Body.lean ====
/-
  The body obligation: at every grid point the body, called on the windows' current buffers and the two carried
  buffers, re-establishes the invariant at the next position and leaves every window's buffer as the proof data says.
  By position: the first point (both layer-0 parts run), the other layer-0 points, the first layer-1 point (both
  layer-1 parts run), the other layer-1 points.
-/
import proofs.«132794_g33578054320522_cont_8to1_b_1871_28_alg».proof.Proof.KB.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0, leaves_1, leaves_2, leaves_3, leaves_4, leaves_5, PhiS_castSucc]
  have hN : t.val < 50 := lt_of_lt_of_eq t.isLt N50
  by_cases hlo : t.val < 25
  · rw [Dat.leavesExact_idle (dats m 0 c) 6 t (idle6 t hlo) (noFlush6 t hlo)]
    rw [PhiS_lo m c (t.val + 1) t.isLt (by omega) (by omega)]
    by_cases hz : t.val = 0
    · rw [PhiS_zero m c _ _ hz, PhiA_eq]
      iintro ⟨⟨⟨⟨%da, HA⟩, ⟨%db, HB⟩⟩, Hg⟩, Ho, ⟨%d0, H0⟩, ⟨%d1, H1⟩, ⟨%d2, H2⟩, ⟨%d3, H3⟩, ⟨%d4, H4⟩, ⟨%d5, H5⟩, H6⟩
      have e : t = t0 := Fin.ext hz
      subst e
      iapply (runA c (grid0.coords t0) _ _ _ _ _ _ _ _ _ _ _ _ _ _ _ _ _ _ ((hcond1 t0).mpr hz) ((hcond2 t0).mpr hlo)
        (fun h => by have := (hcond3 t0).mp h; omega) (fun h => by have := (hcond4 t0).mp h; omega)
        (iblk m c 0 t0) (iblk m c 1 t0) (iblk m c 2 t0) (iblk m c 3 t0) db Set.univ _)
      isplitl [H0]; · iexact H0
      isplitl [H1]; · iexact H1
      isplitl [H2]; · iexact H2
      isplitl [H3]; · iexact H3
      isplitl [HA]; · iexists _; iexact HA
      isplitl [HB]; · iexact HB
      iintro ⟨H0, H1, H2, H3, HA, HB⟩
      isplitl [HA HB Hg]
      · isplitl [HA HB]
        · isplitl [HA]; · iexact HA
          iexists _; isplitr
          swap; · iexact HB
          ipureintro
          exact agree_step m c t0 hlo db (fun p q hp => absurd hp (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_lo m c t.val _ hz (by omega)]
      iintro ⟨⟨⟨HA, ⟨%sb, %hag, HB⟩⟩, Hg⟩, Ho, ⟨%d0, H0⟩, ⟨%d1, H1⟩, ⟨%d2, H2⟩, ⟨%d3, H3⟩, ⟨%d4, H4⟩, ⟨%d5, H5⟩, H6⟩
      iapply (runB c (grid0.coords t) _ _ _ _ _ _ _ _ _ _ _ _ _ _ _ _ _ _ (fun h => hz ((hcond1 t).mp h)) ((hcond2 t).mpr hlo)
        (fun h => by have := (hcond3 t).mp h; omega) (fun h => by have := (hcond4 t).mp h; omega)
        (iblk m c 0 t) (iblk m c 3 t) (sup1C m c) sb Set.univ _)
      isplitl [H0]; · iexact H0
      isplitl [H3]; · iexact H3
      isplitl [HA]; · iexact HA
      isplitl [HB]; · iexact HB
      iintro ⟨H0, H3, HA, HB⟩
      isplitl [HA HB Hg]
      · isplitl [HA HB]
        · isplitl [HA]; · iexact HA
          iexists _; isplitr
          swap; · iexact HB
          ipureintro
          exact agree_step m c t hlo sb hag
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hhi : 25 ≤ t.val := by omega
    rw [leaves_6_hi m c t hhi, PhiS_hi m c (t.val + 1) t.isLt (by omega)]
    by_cases hc : t.val = 25
    · have e : t = t25 := Fin.ext hc
      subst e
      rw [PhiS_lo m c t25.val _ (by decide) (le_refl _)]
      iintro ⟨⟨⟨HA, ⟨%sb, %hag, HB⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := agree_all m c sb hag
      iapply (runC c (grid0.coords t25) _ _ _ _ _ _ _ _ _ _ _ _ _ _ _ _ _ _ (fun h => by have := (hcond1 t25).mp h; omega) (fun h => by have := (hcond2 t25).mp h; omega)
        ((hcond3 t25).mpr hc) ((hcond4 t25).mpr hhi)
        (iblk m c 0 t25) (iblk m c 4 t25) (iblk m c 5 t25) (hidC m c) Set.univ _)
      isplitl [H0]; · iexact H0
      isplitl [H4]; · iexact H4
      isplitl [H5]; · iexact H5
      isplitl [H6]; · iexists _; iexact H6
      isplitl [HA]; · iexists _; iexact HA
      isplitl [HB]; · iexact HB
      iintro ⟨H0, H4, H5, H6, HA, HB⟩
      isplitl [HA HB Hg]
      · isplitl [HA HB]
        · isplitl [HA]; · iexact HA
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_hi m c t.val _ (by omega)]
      iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply (runD c (grid0.coords t) _ _ _ _ _ _ _ _ _ _ _ _ _ _ _ _ _ _ (fun h => by have := (hcond1 t).mp h; omega) (fun h => by have := (hcond2 t).mp h; omega)
        (fun h => hc ((hcond3 t).mp h)) ((hcond4 t).mpr hhi)
        (iblk m c 0 t) (iblk m c 5 t) (sup2C m c) Set.univ _)
      isplitl [H0]; · iexact H0
      isplitl [H5]; · iexact H5
      isplitl [H6]; · iexists _; iexact H6
      isplitl [HA]; · iexact HA
      iintro ⟨H0, H5, H6, HA⟩
      isplitl [HA HB Hg]
      · isplitl [HA HB]
        · isplitl [HA]; · iexact HA
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's back: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N50]; omega), PhiA_eq]
  iintro ⟨⟨HA, HB⟩, Hg⟩
  isplitl [HA HB]
  · isplitl [HA]; · iexists _; iexact HA
    iexists _; iexact HB
  iexact Hg

set_option backward.isDefEq.respectTransparency.types false in
/-- Every weakly fair execution of @main terminates, and every final state has every array of the pipeline at what
    the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Base.lean ====
/-
  The schedule of the two-layer kernel in closed form. The grid has 2 × 25 = 50 points, point t = (layer, row block)
  = (t / 25, t % 25). Four guarded parts: the first support x·W1 is computed at point 0 only; rows
  [400·(t % 25), 400·(t % 25) + 400) of the hidden activations are computed at the layer-0 points t < 25; the second
  support hid·W2 at point 25 only; the result's row block t − 25 at the layer-1 points t ≥ 25. The result window is
  untouched, and not written back, throughout layer 0.
-/
import proofs.«132794_g33578054320522_cont_8to1_b_1871_28_alg».proof.Proof.Gen.KernelIdeal.Frame
import proofs.«132794_g33578054320522_cont_8to1_b_1871_28_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first guard (layer = 0 and row block = 0), as the body computes it from the grid coordinates. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second guard (layer = 0). -/
abbrev cond2 (i : grid0.Coords) : Prop := k0_cond2 i = 1#1
/-- The third guard (layer = 1 and row block = 0). -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The fourth guard (layer = 1). -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The row offset of the hidden activations' slab at a point: 400 times the row block. -/
theorem off1_eq : ∀ t : Fin cfg0.N, k0_off1 (grid0.coords t) = ![400 * (t.val % 25), 0] :=
  (by decide +kernel : ∀ t : Fin grid0.N, k0_off1 (grid0.coords t) = ![400 * (t.val % 25), 0])

/-- The inputs are never idle; the result window is idle, and not written back, exactly in layer 0. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, t.val < 25 → cfg0.idle 6 (grid0.coords t) = true := by decide +kernel
theorem noFlush6 : ∀ t : Fin cfg0.N, t.val < 25 → (cfg0.win 6).flush t = false := by decide +kernel
theorem live6 : ∀ t : Fin cfg0.N, 25 ≤ t.val → cfg0.idle 6 (grid0.coords t) = false := by decide +kernel
theorem flush6 : ∀ t : Fin cfg0.N, 25 ≤ t.val → (cfg0.win 6).flush t = true := by decide +kernel

/-- Each window's current staging memref at point `t`, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The two carried buffers: the current support, and the hidden activations. -/
abbrev scA : Memref sig .tc .vmem S10000x64 .f32 := Memref.whole cc0_scratch0
abbrev scB : Memref sig .tc .vmem S10000x64 .f32 := Memref.whole cc0_scratch1

/-- The region's invariant with the two carried buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Hand

end
-- ==== Proof.KI.Slab.lean ====
/-
  Reading back the buffers the body stores into. A whole-buffer load of contents `X` reads `X`; a store of a 400-row
  block `w` at row offset `o` into a [10000, 64] buffer holding `sb` leaves `slab o sb w`: rows [o, o + 400) hold
  `w`, every other row keeps `sb`; a whole-buffer store leaves its payload.
-/
import proofs.«132794_g33578054320522_cont_8to1_b_1871_28_alg».proof.Proof.KI.Base
import Idealize.ShloMosaic.Lib.WritesUnit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Rows [o, o + 400) of `sb` replaced by the 400-row block `w`. -/
def slab (o : Nat) (sb : Vec F S10000x64 .f32) (w : Vec F S400x64 .f32) : Vec F S10000x64 .f32 :=
  fun j => if h : o ≤ (j 0).val ∧ (j 0).val < o + 400 then w (ix2 (⟨(j 0).val - o, by omega⟩ : Fin 400) (⟨(j 1).val, (j 1).isLt⟩ : Fin 64)) else sb j

theorem slab_of_mem (o : Nat) (sb : Vec F S10000x64 .f32) (w : Vec F S400x64 .f32) (p : Fin 10000) (q : Fin 64)
    (h : o ≤ p.val ∧ p.val < o + 400) : slab o sb w (ix2 p q) = w (ix2 (⟨p.val - o, by omega⟩ : Fin 400) q) := by
  unfold slab; rw [dif_pos h]

theorem slab_of_not_mem (o : Nat) (sb : Vec F S10000x64 .f32) (w : Vec F S400x64 .f32) (p : Fin 10000) (q : Fin 64)
    (h : ¬(o ≤ p.val ∧ p.val < o + 400)) : slab o sb w (ix2 p q) = sb (ix2 p q) := by
  unfold slab; rw [dif_neg h]

/-- The two zero offsets, spelt as a vector, are the zero function. -/
theorem zero2 : (![0, 0] : Fin 2 → ℕ) = fun _ => 0 := by
  funext a; match a with | ⟨0, _⟩ => rfl | ⟨1, _⟩ => rfl

/-- A whole-buffer load reads the contents. -/
theorem readAt_whole_unread {S : Shape} (M : Memref sig .tc .vmem S .f32) (hM : M.IsWhole) (X : Vec F S .f32)
    (off : Fin S.rank → ℕ) (hoff : off = fun _ => 0) (inb : ∀ a, off a + S.size a ≤ S.size a) :
    View.readAt (Elt F) M.view (Rect.unit (s := S) off S.size inb).toLoadRect (hM.unread X) = X := by
  rw [View.readAt_eq_ld, hM.read_unread, View.ld_unit_zero hoff]

/-- A store of a 400-row block at row offset `o`, read back whole. -/
theorem read_slab (v : View sig .tc .vmem S10000x64 .f32) (f : v.ty.Contents (Elt F)) (off : Fin 2 → ℕ) (o : ℕ) (hoff : off = ![o, 0])
    (inb : ∀ a, off a + S400x64.size a ≤ S10000x64.size a) (w : Vec F S400x64 .f32) :
    v.read (Elt F) (v.writes (Elt F) f [(⟨Rect.unit (s := S10000x64) off S400x64.size inb, w⟩ : View.Piece (Elt F) S10000x64 .f32)])
      = slab o (v.read (Elt F) f) w := by
  funext j
  unfold slab
  by_cases h : o ≤ (j 0).val ∧ (j 0).val < o + 400
  · rw [dif_pos h]
    exact View.read_writes_cons_rows_of_mem v f inb w [] j
      (ix2 (⟨(j 0).val - o, by omega⟩ : Fin 400) (⟨(j 1).val, (j 1).isLt⟩ : Fin 64)) hoff
      (by show (j 0).val = o + ((j 0).val - o); omega) rfl
  · rw [dif_neg h]
    exact (View.read_writes_cons_rows_of_not_mem (W := 400) v f inb w [] j hoff rfl (by omega)).trans (by rw [View.writes_nil])

/-- A whole-buffer store, read back whole, is its payload. -/
theorem read_whole_store {S : Shape} (v : View sig .tc .vmem S .f32) (f : v.ty.Contents (Elt F))
    (off : Fin S.rank → ℕ) (hoff : off = fun _ => 0) (inb : ∀ a, off a + S.size a ≤ S.size a) (w : Vec F S .f32)
    (L : List (View.Piece (Elt F) S .f32)) :
    v.read (Elt F) (v.writes (Elt F) f ((⟨Rect.unit (s := S) off S.size inb, w⟩ : View.Piece (Elt F) S .f32) :: L)) = w := by
  subst hoff
  funext y
  exact View.read_writes_cons_unit_of_mem v f inb w L y y rfl (fun a => (Nat.zero_add _).symm)

end Cert.KernelIdeal.Hand

end
-- ==== Proof.KI.RunA.lean ====
/-
  The body at the first point: the first and second guarded parts run. The first stores the product x·W1 over the whole
  support buffer; the second reads it back (so it sees that product), and stores elu(adjacency block · support + bias)
  as rows [o, o + 400) of the hidden activations' buffer, o the point's row offset.
-/
import proofs.«132794_g33578054320522_cont_8to1_b_1871_28_alg».proof.Proof.KI.Slab

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

set_option maxHeartbeats 1000000 in
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : cond1 i) (hc2 : cond2 i) (hc3 : ¬cond3 i) (hc4 : ¬cond4 i)
    (x0 : Vec F S400x10000 .f32) (x1 : Vec F S10000x128 .f32) (x2 : Vec F S128x64 .f32) (x3 : Vec F S1x64 .f32) (sb : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ owns (c : Thread nD τ) arg10 fullShare sb
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (k0_pay1 x1 x2) ∗ owns (c : Thread nD τ) arg10 fullShare (slab ((k0_off1 i) 0) sb (k0_pay2 x0 (k0_pay1 x1 x2) x3))) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f1, %hf1, H1⟩, ⟨%f2, %hf2, H2⟩, ⟨%f3, %hf3, H3⟩, ⟨%da, %fa, -, HA⟩, ⟨%fb, %hfb, HB⟩, Hk⟩
  obtain rfl := harg2.eq_unread hf0; obtain rfl := harg3.eq_unread hf1; obtain rfl := harg4.eq_unread hf2; obtain rfl := harg5.eq_unread hf3; obtain rfl := harg10.eq_unread hfb
  sl_exec (disch := first | exact hc1 | exact hc2 | exact hc3 | exact hc4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HA]
  · iexists _; isplitr
    swap; · iexact HA
    ipureintro
    sl_unfold_run_names
    rw [readAt_whole_unread arg3 harg3 x1 _ zero2, readAt_whole_unread arg4 harg4 x2 _ zero2]
    exact read_whole_store arg9.view _ _ zero2 _ _ _
  iexists _; isplitr
  swap; · iexact HB
  ipureintro
  sl_unfold_run_names
  rw [View.readCov_unit_zero arg9.view zero2, readAt_whole_unread arg2 harg2 x0 _ zero2, readAt_whole_unread arg3 harg3 x1 _ zero2,
    readAt_whole_unread arg4 harg4 x2 _ zero2, readAt_whole_unread arg5 harg5 x3 _ zero2]
  exact (read_slab arg10.view _ (k0_off1 i) _ rfl _ _).trans (by rw [hfb]; rfl)

end Cert.KernelIdeal.Hand

end
-- ==== Proof.KI.RunB.lean ====
/-
  The body at a layer-0 point other than the first: only the second guarded part runs. It reads the adjacency row block,
  the support and the bias row, and stores elu(adjacency block · support + bias) as rows [o, o + 400) of the hidden
  activations' buffer, o the point's row offset; everything else is left as found.
-/
import proofs.«132794_g33578054320522_cont_8to1_b_1871_28_alg».proof.Proof.KI.Slab

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

set_option maxHeartbeats 1000000 in
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : cond2 i) (hc3 : ¬cond3 i) (hc4 : ¬cond4 i)
    (x0 : Vec F S400x10000 .f32) (x3 : Vec F S1x64 .f32) (sa sb : Vec F S10000x64 .f32) (E : Set ℕ) (K : PUnit → sProp 𝕄) :
    iprop(owns (c : Thread nD τ) arg2 fullShare x0 ∗ owns (c : Thread nD τ) arg5 fullShare x3 ∗ owns (c : Thread nD τ) arg9 fullShare sa ∗ owns (c : Thread nD τ) arg10 fullShare sb
      ∗ (iprop(owns (c : Thread nD τ) arg2 fullShare x0 ∗ owns (c : Thread nD τ) arg5 fullShare x3 ∗ owns (c : Thread nD τ) arg9 fullShare sa ∗ owns (c : Thread nD τ) arg10 fullShare (slab ((k0_off1 i) 0) sb (k0_pay2 x0 sa x3))) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f3, %hf3, H3⟩, ⟨%fa, %hfa, HA⟩, ⟨%fb, %hfb, HB⟩, Hk⟩
  obtain rfl := harg2.eq_unread hf0; obtain rfl := harg5.eq_unread hf3; obtain rfl := harg9.eq_unread hfa; obtain rfl := harg10.eq_unread hfb
  sl_exec (disch := first | exact hc1 | exact hc2 | exact hc3 | exact hc4)
  sl_step
  iapply Hk
  isplitl [H0]
  · iexists _; isplitr; · ipureintro; exact hf0
    iexact H0
  isplitl [H3]
  · iexists _; isplitr; · ipureintro; exact hf3
    iexact H3
  isplitl [HA]
  · iexists _; isplitr; · ipureintro; exact hfa
    iexact HA
  iexists _; isplitr
  swap; · iexact HB
  ipureintro
  rw [readAt_whole_unread arg2 harg2 x0 _ zero2, readAt_whole_unread arg9 harg9 sa _ zero2, readAt_whole_unread arg5 harg5 x3 _ zero2]
  exact (read_slab arg10.view _ (k0_off1 i) _ rfl _ _).trans (by rw [hfb]; rfl)

end Cert.KernelIdeal.Hand

end
-- ==== Proof.KI.RunC.lean ====
/-
  The body at the first layer-1 point: the third and fourth guarded parts run. The third reads the whole hidden
  activations and stores their product with W2 over the whole support buffer; the fourth reads that back, and stores
  elu(adjacency block · support + bias) into the result window's buffer, whatever that held.
-/
import proofs.«132794_g33578054320522_cont_8to1_b_1871_28_alg».proof.Proof.KI.Slab

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

set_option maxHeartbeats 1000000 in
theorem runC (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : ¬cond2 i) (hc3 : cond3 i) (hc4 : cond4 i)
    (x0 : Vec F S400x10000 .f32) (x4 : Vec F S64x64 .f32) (x5 : Vec F S1x64 .f32) (sb : Vec F S10000x64 .f32) (E : Set ℕ) (K : PUnit → sProp 𝕄) :
    iprop(owns (c : Thread nD τ) arg2 fullShare x0 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare sb
      ∗ (iprop(owns (c : Thread nD τ) arg2 fullShare x0 ∗ owns (c : Thread nD τ) arg6 fullShare x4 ∗ owns (c : Thread nD τ) arg7 fullShare x5 ∗ owns (c : Thread nD τ) arg8 fullShare (k0_pay4 x0 (k0_pay3 sb x4) x5) ∗ owns (c : Thread nD τ) arg9 fullShare (k0_pay3 sb x4) ∗ owns (c : Thread nD τ) arg10 fullShare sb) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f4, %hf4, H4⟩, ⟨%f5, %hf5, H5⟩, ⟨%d8, %f8, -, H8⟩, ⟨%da, %fa, -, HA⟩, ⟨%fb, %hfb, HB⟩, Hk⟩
  obtain rfl := harg2.eq_unread hf0; obtain rfl := harg6.eq_unread hf4; obtain rfl := harg7.eq_unread hf5; obtain rfl := harg10.eq_unread hfb
  sl_exec (disch := first | exact hc1 | exact hc2 | exact hc3 | exact hc4)
  sl_step
  iapply Hk
  isplitl [H0]
  · iexists _; isplitr; · ipureintro; exact hf0
    iexact H0
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_run_names
    rw [View.readCov_unit_zero arg9.view zero2, readAt_whole_unread arg2 harg2 x0 _ zero2, readAt_whole_unread arg7 harg7 x5 _ zero2,
      readAt_whole_unread arg10 harg10 sb _ zero2, readAt_whole_unread arg6 harg6 x4 _ zero2]
    exact read_whole_store arg8.view _ _ zero2 _ _ _
  isplitl [HA]
  · iexists _; isplitr
    swap; · iexact HA
    ipureintro
    sl_unfold_run_names
    rw [readAt_whole_unread arg10 harg10 sb _ zero2, readAt_whole_unread arg6 harg6 x4 _ zero2]
    exact read_whole_store arg9.view _ _ zero2 _ _ _
  iexists _; isplitr; · ipureintro; exact hfb
  iexact HB

end Cert.KernelIdeal.Hand

end
-- ==== Proof.KI.RunD.lean ====
/-
  The body at a layer-1 point other than the first: only the fourth guarded part runs. It reads the adjacency row block,
  the support and the bias row, and stores elu(adjacency block · support + bias) into the result window's buffer,
  whatever that held; everything else is left as found.
-/
import proofs.«132794_g33578054320522_cont_8to1_b_1871_28_alg».proof.Proof.KI.Slab

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

set_option maxHeartbeats 1000000 in
theorem runD (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (arg8 : Memref sig .tc .vmem S400x64 .f32) (harg8 : arg8.IsWhole) (arg9 : Memref sig .tc .vmem S10000x64 .f32) (harg9 : arg9.IsWhole)
    (arg10 : Memref sig .tc .vmem S10000x64 .f32) (harg10 : arg10.IsWhole)
    (hc1 : ¬cond1 i) (hc2 : ¬cond2 i) (hc3 : ¬cond3 i) (hc4 : cond4 i)
    (x0 : Vec F S400x10000 .f32) (x5 : Vec F S1x64 .f32) (sa : Vec F S10000x64 .f32) (E : Set ℕ) (K : PUnit → sProp 𝕄) :
    iprop(owns (c : Thread nD τ) arg2 fullShare x0 ∗ owns (c : Thread nD τ) arg7 fullShare x5 ∗ (∃ d, owns (c : Thread nD τ) arg8 fullShare d) ∗ owns (c : Thread nD τ) arg9 fullShare sa
      ∗ (iprop(owns (c : Thread nD τ) arg2 fullShare x0 ∗ owns (c : Thread nD τ) arg7 fullShare x5 ∗ owns (c : Thread nD τ) arg8 fullShare (k0_pay4 x0 sa x5) ∗ owns (c : Thread nD τ) arg9 fullShare sa) -∗ K ⟨⟩))
    ⊢ wp frame (wpE (defs₀ (F := F)) Variants.none c none) E (cc0_fused_kernel i arg2 harg2 arg3 harg3 arg4 harg4 arg5 harg5 arg6 harg6 arg7 harg7 arg8 harg8 arg9 harg9 arg10 harg10) K := by
  simp only [cc0_fused_kernel_eq_skeleton]; unfold cc0_fused_kernel_skel
  unfold owns
  iintro ⟨⟨%f0, %hf0, H0⟩, ⟨%f5, %hf5, H5⟩, ⟨%d8, %f8, -, H8⟩, ⟨%fa, %hfa, HA⟩, Hk⟩
  obtain rfl := harg2.eq_unread hf0; obtain rfl := harg7.eq_unread hf5; obtain rfl := harg9.eq_unread hfa
  sl_exec (disch := first | exact hc1 | exact hc2 | exact hc3 | exact hc4)
  sl_step
  iapply Hk
  isplitl [H0]
  · iexists _; isplitr; · ipureintro; exact hf0
    iexact H0
  isplitl [H5]
  · iexists _; isplitr; · ipureintro; exact hf5
    iexact H5
  isplitl [H8]
  · iexists _; isplitr
    swap; · iexact H8
    ipureintro
    rw [readAt_whole_unread arg2 harg2 x0 _ zero2, readAt_whole_unread arg9 harg9 sa _ zero2, readAt_whole_unread arg7 harg7 x5 _ zero2]
    exact read_whole_store arg8.view _ _ zero2 _ _ _
  iexists _; isplitr; · ipureintro; exact hfa
  iexact HA

end Cert.KernelIdeal.Hand

end
-- ==== Proof.KI.Contents.lean ====
/-
  What the two carried buffers and the result window hold, as functions of the argument arrays' blocks.
  `sup1C`: the first support x·W1 (the product of the whole x and W1 windows).
  `hidC`: the hidden activations, row p computed at the layer-0 point p / 400 from that point's adjacency row block,
  the first support and the first bias row, at row p % 400 of the block.
  `sup2C`: the second support hid·W2.
  `outC t`: the result's row block at a layer-1 point t, from that point's adjacency row block, the second support and
  the second bias row.
-/
import proofs.«132794_g33578054320522_cont_8to1_b_1871_28_alg».proof.Proof.KI.Base
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N50 : cfg0.N = 50 := N_0

/-- The grid's first point, and the first point of the second layer. -/
abbrev t0 : Fin cfg0.N := ⟨0, by rw [N50]; omega⟩
abbrev t25 : Fin cfg0.N := ⟨25, by rw [N50]; omega⟩
/-- The layer-0 point that computes row `p` of the hidden activations. -/
abbrev tRow (p : Fin 10000) : Fin cfg0.N := ⟨p.val / 400, by rw [N50]; have := p.isLt; omega⟩

/-- The first support. -/
def sup1C (c : Dev nD) : Vec F S10000x64 .f32 := k0_pay1 (iblk m c 1 t0) (iblk m c 2 t0)

/-- The hidden activations. -/
def hidC (c : Dev nD) : Vec F S10000x64 .f32 := fun j =>
  k0_pay2 (iblk m c 0 (tRow ⟨(j 0).val, (j 0).isLt⟩)) (sup1C m c) (iblk m c 3 (tRow ⟨(j 0).val, (j 0).isLt⟩))
    (ix2 (⟨(j 0).val % 400, Nat.mod_lt _ (by omega)⟩ : Fin 400) (⟨(j 1).val, (j 1).isLt⟩ : Fin 64))

/-- The second support. -/
def sup2C (c : Dev nD) : Vec F S10000x64 .f32 := k0_pay3 (hidC m c) (iblk m c 4 t25)

/-- The result's row block at point `t`. -/
def outC (c : Dev nD) (t : Fin cfg0.N) : Vec F S400x64 .f32 := k0_pay4 (iblk m c 0 t) (sup2C m c) (iblk m c 5 t)

theorem hidC_apply (c : Dev nD) (p : Fin 10000) (q : Fin 64) :
    hidC m c (ix2 p q) = k0_pay2 (iblk m c 0 (tRow p)) (sup1C m c) (iblk m c 3 (tRow p)) (ix2 (⟨p.val % 400, Nat.mod_lt _ (by omega)⟩ : Fin 400) q) := rfl

end Cert.KernelIdeal.Hand

end
-- ==== Proof.KI.Dats.lean ====
/-
  The proof data of the kernel's one pipeline and its body obligation. The region's invariant follows the two carried
  buffers point by point: before the first point they hold anything; after layer-0 point n the support buffer holds
  x·W1 and the hidden activations' buffer agrees with the hidden activations on the rows [0, 400·(n + 1)) computed so far;
  from the first layer-1 point on the support buffer holds hid·W2 and the other buffer the whole hidden activations.
  After the body at a point each input window's buffer holds its block, and (in layer 1) the result window's buffer
  that point's row block of the result. The body at any point is one of four runs, chosen by the point's position.
-/
import proofs.«132794_g33578054320522_cont_8to1_b_1871_28_alg».proof.Proof.KI.RunA
import proofs.«132794_g33578054320522_cont_8to1_b_1871_28_alg».proof.Proof.KI.RunB
import proofs.«132794_g33578054320522_cont_8to1_b_1871_28_alg».proof.Proof.KI.RunC
import proofs.«132794_g33578054320522_cont_8to1_b_1871_28_alg».proof.Proof.KI.RunD
import proofs.«132794_g33578054320522_cont_8to1_b_1871_28_alg».proof.Proof.KI.Contents

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- `sb` agrees with the hidden activations on the rows below `400 · n`. -/
def Agree (c : Dev nD) (n : ℕ) (sb : Vec F S10000x64 .f32) : Prop :=
  ∀ (p : Fin 10000) (q : Fin 64), p.val < 400 * n → sb (ix2 p q) = hidC m c (ix2 p q)

/-- The row offset of a layer-0 point's slab. -/
theorem off1_lo (t : Fin cfg0.N) (ht : t.val < 25) : k0_off1 (grid0.coords t) 0 = 400 * t.val := by
  rw [off1_eq t]; show 400 * (t.val % 25) = 400 * t.val; rw [Nat.mod_eq_of_lt ht]

/-- Storing a layer-0 point's slab extends the agreement by that point's 400 rows. -/
theorem agree_step (c : Dev nD) (t : Fin cfg0.N) (ht : t.val < 25) (sb : Vec F S10000x64 .f32) (h : Agree m c t.val sb) :
    Agree m c (t.val + 1) (slab (k0_off1 (grid0.coords t) 0) sb (k0_pay2 (iblk m c 0 t) (sup1C m c) (iblk m c 3 t))) := by
  intro p q hp
  rw [off1_lo t ht]
  by_cases hm : 400 * t.val ≤ p.val ∧ p.val < 400 * t.val + 400
  · rw [slab_of_mem _ _ _ p q hm, hidC_apply]
    have e : t = tRow p := Fin.ext (by show t.val = p.val / 400; omega)
    subst e
    refine congrArg _ ?_
    refine congrArg (fun a : Fin 400 => ix2 a q) (Fin.ext ?_)
    show p.val - 400 * (p.val / 400) = p.val % 400
    omega
  · rw [slab_of_not_mem _ _ _ p q hm]
    exact h p q (by omega)

/-- Agreement on all 25 slabs is equality. -/
theorem agree_all (c : Dev nD) (sb : Vec F S10000x64 .f32) (h : Agree m c 25 sb) : sb = hidC m c := by
  funext j
  rw [eq_ix2 j]
  exact h ⟨(j 0).val, (j 0).isLt⟩ ⟨(j 1).val, (j 1).isLt⟩ (by have h : (j 0).val < 10000 := (j 0).isLt; show (j 0).val < 400 * 25; omega)

/-- The region's invariant before position `n`. -/
def PhiS (c : Dev nD) : (n : ℕ) → n ≤ cfg0.N → sProp 𝕄
  | 0, _ => Pipeline.ΦA spec0 c
  | n + 1, _ =>
    if n + 1 ≤ 25 then
      iprop(iprop(owns (c : Thread nD τ) scA fullShare (sup1C m c) ∗ (∃ sb, ⌜Agree m c (n + 1) sb⌝ ∗ owns (c : Thread nD τ) scB fullShare sb)) ∗ (∃ r, prngReg c r))
    else
      iprop(iprop(owns (c : Thread nD τ) scA fullShare (sup2C m c) ∗ owns (c : Thread nD τ) scB fullShare (hidC m c)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (hz : n ≠ 0) (hl : n ≤ 25) :
    PhiS m c n h = iprop(iprop(owns (c : Thread nD τ) scA fullShare (sup1C m c) ∗ (∃ sb, ⌜Agree m c n sb⌝ ∗ owns (c : Thread nD τ) scB fullShare sb)) ∗ (∃ r, prngReg c r)) := by
  cases n with
  | zero => exact absurd rfl hz
  | succ n => exact if_pos hl

theorem PhiS_hi (c : Dev nD) (n : ℕ) (h : n ≤ cfg0.N) (hl : 25 < n) :
    PhiS m c n h = iprop(iprop(owns (c : Thread nD τ) scA fullShare (sup2C m c) ∗ owns (c : Thread nD τ) scB fullShare (hidC m c)) ∗ (∃ r, prngReg c r)) := by
  cases n with
  | zero => exact absurd hl (by omega)
  | succ n => exact if_neg (by omega)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outC m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6_hi (c : Dev nD) (t : Fin cfg0.N) (h : 25 ≤ t.val) : (dats m 0 c).leavesExact 6 t = owns (c : Thread nD τ) (ms6 t) fullShare (outC m c t) := by
  unfold Dat.leavesExact; rw [live6 t h, after_6]

end Cert.KernelIdeal.Hand

end
-- ==== Proof.KI.Body.lean ====
/-
  The body obligation: at every grid point the body, called on the windows' current buffers and the two carried
  buffers, re-establishes the invariant at the next position and leaves every window's buffer as the proof data says.
  By position: the first point (both layer-0 parts run), the other layer-0 points, the first layer-1 point (both
  layer-1 parts run), the other layer-1 points.
-/
import proofs.«132794_g33578054320522_cont_8to1_b_1871_28_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl]
  rw [leaves_0, leaves_1, leaves_2, leaves_3, leaves_4, leaves_5, PhiS_castSucc]
  have hN : t.val < 50 := lt_of_lt_of_eq t.isLt N50
  by_cases hlo : t.val < 25
  · rw [Dat.leavesExact_idle (dats m 0 c) 6 t (idle6 t hlo) (noFlush6 t hlo)]
    rw [PhiS_lo m c (t.val + 1) t.isLt (by omega) (by omega)]
    by_cases hz : t.val = 0
    · rw [PhiS_zero m c _ _ hz, PhiA_eq]
      iintro ⟨⟨⟨⟨%da, HA⟩, ⟨%db, HB⟩⟩, Hg⟩, Ho, ⟨%d0, H0⟩, ⟨%d1, H1⟩, ⟨%d2, H2⟩, ⟨%d3, H3⟩, ⟨%d4, H4⟩, ⟨%d5, H5⟩, H6⟩
      have e : t = t0 := Fin.ext hz
      subst e
      iapply (runA c (grid0.coords t0) _ _ _ _ _ _ _ _ _ _ _ _ _ _ _ _ _ _ ((hcond1 t0).mpr hz) ((hcond2 t0).mpr hlo)
        (fun h => by have := (hcond3 t0).mp h; omega) (fun h => by have := (hcond4 t0).mp h; omega)
        (iblk m c 0 t0) (iblk m c 1 t0) (iblk m c 2 t0) (iblk m c 3 t0) db Set.univ _)
      isplitl [H0]; · iexact H0
      isplitl [H1]; · iexact H1
      isplitl [H2]; · iexact H2
      isplitl [H3]; · iexact H3
      isplitl [HA]; · iexists _; iexact HA
      isplitl [HB]; · iexact HB
      iintro ⟨H0, H1, H2, H3, HA, HB⟩
      isplitl [HA HB Hg]
      · isplitl [HA HB]
        · isplitl [HA]; · iexact HA
          iexists _; isplitr
          swap; · iexact HB
          ipureintro
          exact agree_step m c t0 hlo db (fun p q hp => absurd hp (by omega))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_lo m c t.val _ hz (by omega)]
      iintro ⟨⟨⟨HA, ⟨%sb, %hag, HB⟩⟩, Hg⟩, Ho, ⟨%d0, H0⟩, ⟨%d1, H1⟩, ⟨%d2, H2⟩, ⟨%d3, H3⟩, ⟨%d4, H4⟩, ⟨%d5, H5⟩, H6⟩
      iapply (runB c (grid0.coords t) _ _ _ _ _ _ _ _ _ _ _ _ _ _ _ _ _ _ (fun h => hz ((hcond1 t).mp h)) ((hcond2 t).mpr hlo)
        (fun h => by have := (hcond3 t).mp h; omega) (fun h => by have := (hcond4 t).mp h; omega)
        (iblk m c 0 t) (iblk m c 3 t) (sup1C m c) sb Set.univ _)
      isplitl [H0]; · iexact H0
      isplitl [H3]; · iexact H3
      isplitl [HA]; · iexact HA
      isplitl [HB]; · iexact HB
      iintro ⟨H0, H3, HA, HB⟩
      isplitl [HA HB Hg]
      · isplitl [HA HB]
        · isplitl [HA]; · iexact HA
          iexists _; isplitr
          swap; · iexact HB
          ipureintro
          exact agree_step m c t hlo sb hag
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hhi : 25 ≤ t.val := by omega
    rw [leaves_6_hi m c t hhi, PhiS_hi m c (t.val + 1) t.isLt (by omega)]
    by_cases hc : t.val = 25
    · have e : t = t25 := Fin.ext hc
      subst e
      rw [PhiS_lo m c t25.val _ (by decide) (le_refl _)]
      iintro ⟨⟨⟨HA, ⟨%sb, %hag, HB⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := agree_all m c sb hag
      iapply (runC c (grid0.coords t25) _ _ _ _ _ _ _ _ _ _ _ _ _ _ _ _ _ _ (fun h => by have := (hcond1 t25).mp h; omega) (fun h => by have := (hcond2 t25).mp h; omega)
        ((hcond3 t25).mpr hc) ((hcond4 t25).mpr hhi)
        (iblk m c 0 t25) (iblk m c 4 t25) (iblk m c 5 t25) (hidC m c) Set.univ _)
      isplitl [H0]; · iexact H0
      isplitl [H4]; · iexact H4
      isplitl [H5]; · iexact H5
      isplitl [H6]; · iexists _; iexact H6
      isplitl [HA]; · iexists _; iexact HA
      isplitl [HB]; · iexact HB
      iintro ⟨H0, H4, H5, H6, HA, HB⟩
      isplitl [HA HB Hg]
      · isplitl [HA HB]
        · isplitl [HA]; · iexact HA
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_hi m c t.val _ (by omega)]
      iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
      iapply (runD c (grid0.coords t) _ _ _ _ _ _ _ _ _ _ _ _ _ _ _ _ _ _ (fun h => by have := (hcond1 t).mp h; omega) (fun h => by have := (hcond2 t).mp h; omega)
        (fun h => hc ((hcond3 t).mp h)) ((hcond4 t).mpr hhi)
        (iblk m c 0 t) (iblk m c 5 t) (sup2C m c) Set.univ _)
      isplitl [H0]; · iexact H0
      isplitl [H5]; · iexact H5
      isplitl [H6]; · iexists _; iexact H6
      isplitl [HA]; · iexact HA
      iintro ⟨H0, H5, H6, HA⟩
      isplitl [HA HB Hg]
      · isplitl [HA HB]
        · isplitl [HA]; · iexact HA
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's back: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N50]; omega), PhiA_eq]
  iintro ⟨⟨HA, HB⟩, Hg⟩
  isplitl [HA HB]
  · isplitl [HA]; · iexists _; iexact HA
    iexists _; iexact HB
  iexact Hg

set_option backward.isDefEq.respectTransparency.types false in
/-- Every weakly fair execution of @main terminates, and every final state has every array of the pipeline at what
    the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Blocks.lean ====
/-
  From a window's block at a grid point to the array it is a block of, coordinate by coordinate.

  The grid has 2 × 25 points; point t has coordinates (t / 25, t % 25). The adjacency window's block at t is rows
  400·(t % 25) … 400·(t % 25) + 399 of the [10000, 10000] array; the features, the two weight matrices and the two bias
  rows are one whole block each at every point (a bias row is the [64] argument reshaped to [1, 64] before the region);
  the output window's block index is (t / 25)·(t % 25), so in the second half of the grid (25 ≤ t) its block is rows
  400·(t % 25) … of the [10000, 64] result, and those 25 blocks cover every row: row p lies in the block of t = 25 + p / 400.
-/
import proofs.«132794_g33578054320522_cont_8to1_b_1871_28_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Blk

open Cert.KernelIdeal Cert.KernelIdeal.Gen Idealize.ShloMosaic.ValueIdx

variable {F : FTy → Type} [FloatOps F]
variable (m : (ℓ : Loc nD τ sig) → Buf (Elt F) ℓ)

/-! ## The block indices, decided over the grid -/

/-- Each window's block index at point `t`: the adjacency window moves with `t % 25`, the output window with
    `(t / 25) · (t % 25)`, every other window stays at block (0, 0). -/
theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (t.val / 25) * (t.val % 25) ∧ win0_6.index t (1 : Fin 2) = 0 :=
  (by decide +kernel : ∀ t : Fin grid0.N, _)

/-- The output window is written back exactly at the points of the second half of the grid. -/
theorem flush6_iff : ∀ t : Fin cfg0.N, (cfg0.win 6).flush t = true ↔ 25 ≤ t.val :=
  (by decide +kernel : ∀ t : Fin grid0.N, win0_6.flush t = true ↔ 25 ≤ t.val)

/-- The output window is written back at every point of the second half of the grid. -/
theorem flush6 (t : Fin cfg0.N) (ht : 25 ≤ t.val) : (cfg0.win 6).flush t = true := (flush6_iff t).mpr ht

/-! ## The input windows' blocks -/

/-- The adjacency window's block at point `t` is rows `400·(t % 25) + r` of the adjacency array. -/
theorem iblk0_apply (c : Dev nD) (t : Fin cfg0.N) (r : Fin 400) (k : Fin 10000) :
    (iblk m c 0 t : Vec F S400x10000 .f32) (ix2 r k)
      = (m ((c : Thread nD τ).loc main_arg1) : S10000x10000.Idx → Elt F .f32)
          (ix2 (⟨400 * (t.val % 25) + r.val, by have := r.isLt; omega⟩ : Fin 10000) k) := by
  obtain ⟨h0, h1, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_0.index t 0 * 400 + 1 * r.val = 400 * (t.val % 25) + r.val; rw [h0]; omega
  | ⟨1, _⟩ => show win0_0.index t 1 * 10000 + 1 * k.val = k.val; rw [h1]; omega

/-- The features window's block at every point is the whole features array. -/
theorem iblk1_apply (c : Dev nD) (t : Fin cfg0.N) (p : Fin 10000) (k : Fin 128) :
    (iblk m c 1 t : Vec F S10000x128 .f32) (ix2 p k)
      = (m ((c : Thread nD τ).loc main_arg0) : S10000x128.Idx → Elt F .f32) (ix2 p k) := by
  obtain ⟨-, -, h0, h1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_1.index t 0 * 10000 + 1 * p.val = p.val; rw [h0]; omega
  | ⟨1, _⟩ => show win0_1.index t 1 * 128 + 1 * k.val = k.val; rw [h1]; omega

/-- The first weight window's block at every point is the whole [128, 64] array. -/
theorem iblk2_apply (c : Dev nD) (t : Fin cfg0.N) (k : Fin 128) (q : Fin 64) :
    (iblk m c 2 t : Vec F S128x64 .f32) (ix2 k q)
      = (m ((c : Thread nD τ).loc main_arg2) : S128x64.Idx → Elt F .f32) (ix2 k q) := by
  obtain ⟨-, -, -, -, h0, h1, -⟩ := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t 0 * 128 + 1 * k.val = k.val; rw [h0]; omega
  | ⟨1, _⟩ => show win0_2.index t 1 * 64 + 1 * q.val = q.val; rw [h1]; omega

/-- The second weight window's block at every point is the whole [64, 64] array. -/
theorem iblk4_apply (c : Dev nD) (t : Fin cfg0.N) (k q : Fin 64) :
    (iblk m c 4 t : Vec F S64x64 .f32) (ix2 k q)
      = (m ((c : Thread nD τ).loc main_arg4) : S64x64.Idx → Elt F .f32) (ix2 k q) := by
  obtain ⟨-, -, -, -, -, -, -, -, h0, h1, -⟩ := idx_facts t
  unfold iblk
  rw [View.read_apply]
  show V m c main_arg4 _ = m (c.tc.loc main_arg4) _
  rw [V_main_arg4]
  refine congrArg _ (funext fun a => Fin.ext ?_)
  match a with
  | ⟨0, _⟩ => show win0_4.index t 0 * 64 + 1 * k.val = k.val; rw [h0]; omega
  | ⟨1, _⟩ => show win0_4.index t 1 * 64 + 1 * q.val = q.val; rw [h1]; omega

/-! ## The two bias rows: a [64] argument reshaped to [1, 64] before the region -/

/-- The first bias row as the region finds it: the [64] argument read through the reshape to [1, 64]. -/
theorem V_bias1 (c : Dev nD) :
    (V m c main_call0_v0 : S1x64.Idx → Elt F .f32)
      = shapeCast S1x64 (m ((c : Thread nD τ).loc main_arg3) : S64.Idx → Elt F .f32) Facts₀.shapeCasts_S64_S1x64 := by
  dsimp only [Gen.V, Gen.hostOps0]; after_results; rfl

/-- The second bias row as the region finds it. -/
theorem V_bias2 (c : Dev nD) :
    (V m c main_call0_v1 : S1x64.Idx → Elt F .f32)
      = shapeCast S1x64 (m ((c : Thread nD τ).loc main_arg5) : S64.Idx → Elt F .f32) Facts₀.shapeCasts_S64_S1x64 := by
  dsimp only [Gen.V, Gen.hostOps0]; after_results; rfl

/-- A [64] array reshaped to [1, 64], read at (0, q), is the array at q: the two indices have the same row-major position. -/
theorem reshape_row_apply {α : Type} (x : S64.Idx → α) (h : S64.ShapeCasts S1x64) (q : Fin 64) :
    shapeCast S1x64 x h (ix2 (0 : Fin 1) q) = x (ix1 q) :=
  shapeCast_apply x h (ix2 (0 : Fin 1) q) (ix1 q) (by
    rw [Shape.rowMajor_val_two, Shape.rowMajor_val_one]; show q.val = 0 * 64 + q.val; omega)

/-- The first bias window's block at every point, at (0, q), is the first bias argument at q. -/
theorem iblk3_apply (c : Dev nD) (t : Fin cfg0.N) (q : Fin 64) :
    (iblk m c 3 t : Vec F S1x64 .f32) (ix2 (0 : Fin 1) q)
      = (m ((c : Thread nD τ).loc main_arg3) : S64.Idx → Elt F .f32) (ix1 q) := by
  obtain ⟨-, -, -, -, -, -, h0, h1, -⟩ := idx_facts t
  unfold iblk
  rw [View.read_apply]
  show (V m c main_call0_v0 : S1x64.Idx → Elt F .f32) _ = _
  refine (congrArg (V m c main_call0_v0 : S1x64.Idx → Elt F .f32)
    (funext fun a => Fin.ext ?_ : _ = (ix2 (0 : Fin 1) q : S1x64.Idx))).trans ?_
  · match a with
    | ⟨0, _⟩ => show win0_3.index t 0 * 1 + 1 * 0 = 0; rw [h0]
    | ⟨1, _⟩ => show win0_3.index t 1 * 64 + 1 * q.val = q.val; rw [h1]; omega
  · rw [V_bias1]
    exact reshape_row_apply _ _ q

/-- The second bias window's block at every point, at (0, q), is the second bias argument at q. -/
theorem iblk5_apply (c : Dev nD) (t : Fin cfg0.N) (q : Fin 64) :
    (iblk m c 5 t : Vec F S1x64 .f32) (ix2 (0 : Fin 1) q)
      = (m ((c : Thread nD τ).loc main_arg5) : S64.Idx → Elt F .f32) (ix1 q) := by
  obtain ⟨-, -, -, -, -, -, -, -, -, -, h0, h1, -⟩ := idx_facts t
  unfold iblk
  rw [View.read_apply]
  show (V m c main_call0_v1 : S1x64.Idx → Elt F .f32) _ = _
  refine (congrArg (V m c main_call0_v1 : S1x64.Idx → Elt F .f32)
    (funext fun a => Fin.ext ?_ : _ = (ix2 (0 : Fin 1) q : S1x64.Idx))).trans ?_
  · match a with
    | ⟨0, _⟩ => show win0_5.index t 0 * 1 + 1 * 0 = 0; rw [h0]
    | ⟨1, _⟩ => show win0_5.index t 1 * 64 + 1 * q.val = q.val; rw [h1]; omega
  · rw [V_bias2]
    exact reshape_row_apply _ _ q

/-! ## The output window: its block read off an array, and the cover -/

/-- In the second half of the grid the output window's block at point `t`, read off any [10000, 64] array `G` at (r, q),
    is `G` at row `400·(t % 25) + r`, column q. -/
theorem blk6_read_apply (G : S10000x64.Idx → Elt F .f32) (t : Fin cfg0.N) (ht : 25 ≤ t.val) (r : Fin 400) (q : Fin 64) :
    (((cfg0.win 6).blk t).view.read (Elt F) G : Vec F S400x64 .f32) (ix2 r q)
      = G (ix2 (⟨400 * (t.val % 25) + r.val, by have := r.isLt; omega⟩ : Fin 10000) q) := by
  have hN : cfg0.N = 50 := N_0
  have hlt : t.val < cfg0.N := t.isLt
  have hd : t.val / 25 = 1 := by omega
  obtain ⟨-, -, -, -, -, -, -, -, -, -, -, -, h0, h1⟩ := idx_facts t
  rw [View.read_apply]
  show G _ = G _
  refine congrArg G (funext fun a => Fin.ext ?_)
  match a with
  | ⟨0, _⟩ => show win0_6.index t 0 * 400 + 1 * r.val = 400 * (t.val % 25) + r.val; rw [h0, hd]; omega
  | ⟨1, _⟩ => show win0_6.index t 1 * 64 + 1 * q.val = q.val; rw [h1]; omega

/-- The same as one function of the block's index. -/
theorem blk6_read (G : S10000x64.Idx → Elt F .f32) (t : Fin cfg0.N) (ht : 25 ≤ t.val) :
    (((cfg0.win 6).blk t).view.read (Elt F) G : Vec F S400x64 .f32)
      = fun y : S400x64.Idx => G (ix2 (⟨400 * (t.val % 25) + (y 0).val, by have := idx2_lt0 y; omega⟩ : Fin 10000)
          (⟨(y 1).val, idx2_lt1 y⟩ : Fin 64)) := by
  funext y
  obtain ⟨r, q, rfl⟩ : ∃ (r : Fin 400) (q : Fin 64), y = ix2 r q := ⟨y 0, y 1, eq_ix2 y⟩
  exact blk6_read_apply G t ht r q

/-- An index of the result array is in point `t`'s block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v0).slice (win0_6.rect t)).set ↔ _
  rw [View.set_slice_whole, Rect.mem_set_unit]
  exact Iff.rfl

/-- Every index of the result array lies in the block of a point that writes back: row p in the block of point 25 + p / 400. -/
theorem cover6 (i : S10000x64.Idx) :
    ∃ t : Fin cfg0.N, (cfg0.win 6).flush t = true ∧ i ∈ ((cfg0.win 6).blk t).view.set := by
  have hN : cfg0.N = 50 := N_0
  have hi0 : (i 0).val < 10000 := (i 0).isLt
  have hi1 : (i 1).val < 64 := (i 1).isLt
  have hb : 25 + (i 0).val / 400 < cfg0.N := by omega
  obtain ⟨-, -, -, -, -, -, -, -, -, -, -, -, h0, h1⟩ := idx_facts ⟨25 + (i 0).val / 400, hb⟩
  have hd : (25 + (i 0).val / 400) / 25 = 1 := by omega
  have hm : (25 + (i 0).val / 400) % 25 = (i 0).val / 400 := by omega
  refine ⟨⟨25 + (i 0).val / 400, hb⟩, flush6 _ (by show 25 ≤ 25 + (i 0).val / 400; omega), ?_⟩
  rw [mem_blk6]
  intro a
  match a with
  | ⟨0, _⟩ =>
    show win0_6.index ⟨25 + (i 0).val / 400, hb⟩ 0 * 400 ≤ (i 0).val ∧ (i 0).val < win0_6.index ⟨25 + (i 0).val / 400, hb⟩ 0 * 400 + 400
    rw [h0]; show (25 + (i 0).val / 400) / 25 * ((25 + (i 0).val / 400) % 25) * 400 ≤ _ ∧ _ < (25 + (i 0).val / 400) / 25 * ((25 + (i 0).val / 400) % 25) * 400 + 400
    rw [hd, hm]; omega
  | ⟨1, _⟩ =>
    show win0_6.index ⟨25 + (i 0).val / 400, hb⟩ 1 * 64 ≤ (i 1).val ∧ (i 1).val < win0_6.index ⟨25 + (i 0).val / 400, hb⟩ 1 * 64 + 64
    rw [h1]; omega

/-- So an array whose every written-back block is that block of `G` ends holding `G`. -/
theorem arrAt6_eq {c : Dev nD} (dat : Dat τ (Elt F) Unit ℕ (UR sig nD τ) ℕ cfg0 c) (G : S10000x64.Idx → Elt F .f32)
    (hG : ∀ t, (cfg0.win 6).flush t = true → dat.flushed 6 t = ((cfg0.win 6).blk t).view.read (Elt F) G) :
    dat.arrAt 6 cfg0.N = G :=
  dat.arrAt_eq_of_cover 6 G hG cover6

end Cert.KernelIdeal.Blk

end
-- ==== Proof.Spec.lean ====
/-
  The two-layer graph convolution as ONE function of the six argument arrays, index by index, on the extended reals.

  With x : [10000,128], adj : [10000,10000], W1 : [128,64], b1 : [64], W2 : [64,64], b2 : [64]:
    sup1 p q = ∑ k, x[p,k] · W1[k,q]                         (the first layer's support, x·W1)
    hid  p q = elu (∑ k, adj[p,k] · sup1 k q + b1[q])         (the first layer's activations)
    sup2 p q = ∑ k, hid p k · W2[k,q]                         (the second layer's support, hid·W2)
    outv p q = elu (∑ k, adj[p,k] · sup2 k q + b2[q])         (the result)
  where elu v = v for 0 < v and e^v − 1 otherwise.
  Both programs are shown to compute `G`; nothing here depends on either program.
-/
import Idealize.ShloMosaic.PureOps.Ideal
import Idealize.ShloMosaic.Lib.ValueIdx

noncomputable section

open scoped BigOperators

namespace Cert.GcnSpec

open Idealize.ShloMosaic Idealize.ShloMosaic.ValueIdx

/-- The exponential linear unit on the extended reals: the identity on the positive half-line, `e^v − 1` elsewhere. -/
def elu (v : EReal) : EReal := if 0 < v then v else Ideal.exp v - 1

/-- The first layer's support `x · W1` at row `p`, column `q`. -/
def sup1 (x : FVec Ideal ⟨2, ![10000, 128]⟩ .f32) (W1 : FVec Ideal ⟨2, ![128, 64]⟩ .f32) (p : Fin 10000) (q : Fin 64) : EReal :=
  ∑ k : Fin 128, x (ix2 p k) * W1 (ix2 k q)

/-- The first layer's activations `elu (adj · (x · W1) + b1)` at row `p`, column `q`. -/
def hid (x : FVec Ideal ⟨2, ![10000, 128]⟩ .f32) (adj : FVec Ideal ⟨2, ![10000, 10000]⟩ .f32) (W1 : FVec Ideal ⟨2, ![128, 64]⟩ .f32)
    (b1 : FVec Ideal ⟨1, ![64]⟩ .f32) (p : Fin 10000) (q : Fin 64) : EReal :=
  elu ((∑ k : Fin 10000, adj (ix2 p k) * sup1 x W1 k q) + b1 (ix1 q))

/-- The second layer's support `hid · W2` at row `p`, column `q`. -/
def sup2 (x : FVec Ideal ⟨2, ![10000, 128]⟩ .f32) (adj : FVec Ideal ⟨2, ![10000, 10000]⟩ .f32) (W1 : FVec Ideal ⟨2, ![128, 64]⟩ .f32)
    (b1 : FVec Ideal ⟨1, ![64]⟩ .f32) (W2 : FVec Ideal ⟨2, ![64, 64]⟩ .f32) (p : Fin 10000) (q : Fin 64) : EReal :=
  ∑ k : Fin 64, hid x adj W1 b1 p k * W2 (ix2 k q)

/-- The result `elu (adj · (hid · W2) + b2)` at row `p`, column `q`. -/
def outv (x : FVec Ideal ⟨2, ![10000, 128]⟩ .f32) (adj : FVec Ideal ⟨2, ![10000, 10000]⟩ .f32) (W1 : FVec Ideal ⟨2, ![128, 64]⟩ .f32)
    (b1 : FVec Ideal ⟨1, ![64]⟩ .f32) (W2 : FVec Ideal ⟨2, ![64, 64]⟩ .f32) (b2 : FVec Ideal ⟨1, ![64]⟩ .f32)
    (p : Fin 10000) (q : Fin 64) : EReal :=
  elu ((∑ k : Fin 10000, adj (ix2 p k) * sup2 x adj W1 b1 W2 k q) + b2 (ix1 q))

/-- The whole result array as a function of the six argument arrays. -/
def G (x : FVec Ideal ⟨2, ![10000, 128]⟩ .f32) (adj : FVec Ideal ⟨2, ![10000, 10000]⟩ .f32) (W1 : FVec Ideal ⟨2, ![128, 64]⟩ .f32)
    (b1 : FVec Ideal ⟨1, ![64]⟩ .f32) (W2 : FVec Ideal ⟨2, ![64, 64]⟩ .f32) (b2 : FVec Ideal ⟨1, ![64]⟩ .f32) :
    FVec Ideal ⟨2, ![10000, 64]⟩ .f32 :=
  fun j => outv x adj W1 b1 W2 b2 (j 0) (j 1)

theorem G_apply (x : FVec Ideal ⟨2, ![10000, 128]⟩ .f32) (adj : FVec Ideal ⟨2, ![10000, 10000]⟩ .f32) (W1 : FVec Ideal ⟨2, ![128, 64]⟩ .f32)
    (b1 : FVec Ideal ⟨1, ![64]⟩ .f32) (W2 : FVec Ideal ⟨2, ![64, 64]⟩ .f32) (b2 : FVec Ideal ⟨1, ![64]⟩ .f32) (p : Fin 10000) (q : Fin 64) :
    G x adj W1 b1 W2 b2 (ix2 p q) = outv x adj W1 b1 W2 b2 p q := rfl

end Cert.GcnSpec

end
-- ==== Proof.Payloads.lean ====
/-
  The kernel's four pure payload terms read at one index, on the extended reals.

  Two of them are a matrix product accumulated into the zero array (followed by a shape cast to the same shape, the
  identity): at (p, q) they are the sum over the contracted coordinate k of the products X[p,k] · W[k,q].
  The other two add a row broadcast of a [1, n] array to such a product and apply, element by element,
      select (v > 0, v, exp (min v 0) − 1).
  Where v is not above zero, min v 0 = v, so this is the exponential linear unit
      elu v = v for 0 < v,  e^v − 1 otherwise.
  Nothing here needs finiteness: only 0 + s = s and the definitions of the operations on the extended reals.
-/
import proofs.«132794_g33578054320522_cont_8to1_b_1871_28_alg».proof.Proof.Gen.KernelIdeal.Skeleton
import proofs.«132794_g33578054320522_cont_8to1_b_1871_28_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The scalar facts -/

/-- The f32 word `0x3F800000` denotes the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The kernel's spelling of the exponential linear unit at one element: the element itself where it is above zero,
    `exp (min v 0) − 1` elsewhere; there `min v 0 = v`. -/
theorem elu_spelled (v : EReal) :
    Scalar.select (Ideal.cmp .ogt v 0) v (Ideal.exp (min v 0) - 1) = Cert.GcnSpec.elu v := by
  unfold Cert.GcnSpec.elu Scalar.select Ideal.cmp
  by_cases h : 0 < v
  · simp [h]
  · simp [h, min_eq_left (not_lt.mp h)]

/-! ## A plain matrix product into the zero array, read at an index -/

/-- An m×k by k×n product (contracting the left operand's axis 1 with the right operand's axis 0, no batch axis)
    accumulated into the zero array is, at (a, b), the sum over the contracted coordinate of the products of the
    entries. `w` is the record's well-formedness, which a program states. -/
theorem matmul_zero_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B (constant _ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The product followed by the bias row and the exponential linear unit, read at an index -/

/-- The activation chain over any two arrays of one shape: at an index, `select (v > 0, v, exp (min v 0) − 1)` of the
    element `v = s + t` is the exponential linear unit of `v`. -/
theorem elu_chain_apply {s : Shape} (P Q : FVec Ideal s .f32) (i : s.Idx) :
    select (cmpf .ogt (addf P Q) (broadcast s (Scalar.ofBits .f32 0x00000000#32)))
        (addf P Q)
        (subf (exp (minimumf (addf P Q) (broadcast s (Scalar.ofBits .f32 0x00000000#32))))
          (broadcast s (Scalar.ofBits .f32 0x3F800000#32))) i
      = Cert.GcnSpec.elu (P i + Q i) := by
  have h0 : (Scalar.ofBits (F := Ideal) .f32 0x00000000#32 : Ideal .f32) = (0 : EReal) := Ideal.ofBits_zero_f32
  have h1 : (Scalar.ofBits (F := Ideal) .f32 0x3F800000#32 : Ideal .f32) = (1 : EReal) := ofBits_one_f32
  show Scalar.select (Ideal.cmp .ogt (P i + Q i) (Scalar.ofBits (F := Ideal) .f32 0x00000000#32))
      (P i + Q i)
      (Ideal.exp (min (P i + Q i) (Scalar.ofBits (F := Ideal) .f32 0x00000000#32)) - Scalar.ofBits (F := Ideal) .f32 0x3F800000#32) = _
  rw [h0, h1]
  exact elu_spelled _

/-! ## The four payloads -/

/-- The first payload: X · W at (p, q). -/
theorem pay1_apply (X : Vec Ideal S10000x128 .f32) (W : Vec Ideal S128x64 .f32) (p : Fin 10000) (q : Fin 64) :
    k0_pay1 (F := Ideal) X W (ix2 p q) = ∑ k : Fin 128, X (ix2 p k) * W (ix2 k q) := by
  show shapeCast S10000x64
      (matmul (F := Ideal) (φ₁ := .f32) (φ₂ := .f32) dot_S10000x128_S128x64_S10000x64_1_0_0_1_n_n none X W
        (constant S10000x64 .f32 0x00000000#32))
      Facts₀.shapeCasts_S10000x64_S10000x64 (ix2 p q) = _
  rw [shapeCast_self]
  exact matmul_zero_plain_apply _ none X W p q

/-- The third payload: H · W at (p, q). -/
theorem pay3_apply (H : Vec Ideal S10000x64 .f32) (W : Vec Ideal S64x64 .f32) (p : Fin 10000) (q : Fin 64) :
    k0_pay3 (F := Ideal) H W (ix2 p q) = ∑ k : Fin 64, H (ix2 p k) * W (ix2 k q) := by
  show shapeCast S10000x64
      (matmul (F := Ideal) (φ₁ := .f32) (φ₂ := .f32) dot_S10000x64_S64x64_S10000x64_1_0_0_1_n_n none H W
        (constant S10000x64 .f32 0x00000000#32))
      Facts₀.shapeCasts_S10000x64_S10000x64 (ix2 p q) = _
  rw [shapeCast_self]
  exact matmul_zero_plain_apply _ none H W p q

/-- The fourth payload: elu (A · S + the bias row) at (r, q). -/
theorem pay4_apply (A : Vec Ideal S400x10000 .f32) (S : Vec Ideal S10000x64 .f32) (b : Vec Ideal S1x64 .f32)
    (r : Fin 400) (q : Fin 64) :
    k0_pay4 (F := Ideal) A S b (ix2 r q)
      = Cert.GcnSpec.elu ((∑ k : Fin 10000, A (ix2 r k) * S (ix2 k q)) + b (ix2 (0 : Fin 1) q)) := by
  refine (elu_chain_apply
    (matmul dot_S400x10000_S10000x64_S400x64_1_0_0_1_n_n none A S (constant S400x64 .f32 0x00000000#32))
    (broadcastTo S400x64 (shapeCast S1x64 b Facts₀.shapeCasts_S1x64_S1x64) Facts₀.broadcasts_S1x64_S400x64) (ix2 r q)).trans ?_
  rw [shapeCast_self, broadcastTo_1b_ab_apply]
  exact congrArg (fun t => Cert.GcnSpec.elu (t + b (ix2 (0 : Fin 1) q))) (matmul_zero_plain_apply _ none A S r q)

/-- The second payload: the same value, through one more shape cast to the same shape. -/
theorem pay2_apply (A : Vec Ideal S400x10000 .f32) (S : Vec Ideal S10000x64 .f32) (b : Vec Ideal S1x64 .f32)
    (r : Fin 400) (q : Fin 64) :
    k0_pay2 (F := Ideal) A S b (ix2 r q)
      = Cert.GcnSpec.elu ((∑ k : Fin 10000, A (ix2 r k) * S (ix2 k q)) + b (ix2 (0 : Fin 1) q)) := by
  have e : k0_pay2 (F := Ideal) A S b = k0_pay4 (F := Ideal) A S b :=
    shapeCast_self (k0_pay4 (F := Ideal) A S b) Facts₀.shapeCasts_S400x64_S400x64
  rw [e]
  exact pay4_apply A S b r q

end Cert.KernelIdeal.Pay

end
-- ==== Proof.KValue.lean ====
/-
  The kernel's carried contents are the specification's layers: the first support, the hidden activations, the second
  support and each row block of the result, read at an index, are `Cert.GcnSpec`'s `sup1`, `hid`, `sup2` and `outv` of
  the six argument arrays. Each payload is first read over arrays that agree entry by entry with what they stand for;
  the window blocks are put in last, through their coordinate lemmas.
-/
import proofs.«132794_g33578054320522_cont_8to1_b_1871_28_alg».proof.Proof.KI.Contents
import proofs.«132794_g33578054320522_cont_8to1_b_1871_28_alg».proof.Proof.Payloads
import proofs.«132794_g33578054320522_cont_8to1_b_1871_28_alg».proof.Proof.Spec
import proofs.«132794_g33578054320522_cont_8to1_b_1871_28_alg».proof.Proof.Blocks

noncomputable section

open scoped BigOperators

namespace Cert.KernelIdeal.KVal

open Cert.KernelIdeal Cert.KernelIdeal.Gen Cert.GcnSpec
open Idealize.ShloMosaic Idealize.ShloMosaic.ValueIdx Idealize.ShloMosaic.TcCoe Idealize.SL.Sem

/-! ## The four payloads over arrays that agree, entry by entry, with the specification's layers -/

/-- A product of two arrays that read as `x` and `W1` is the first support. -/
theorem sup1_of (X : Vec Ideal S10000x128 .f32) (W : Vec Ideal S128x64 .f32) (x : FVec Ideal ⟨2, ![10000, 128]⟩ .f32) (W1 : FVec Ideal ⟨2, ![128, 64]⟩ .f32)
    (hX : ∀ (p : Fin 10000) (k : Fin 128), X (ix2 p k) = x (ix2 p k)) (hW : ∀ (k : Fin 128) (q : Fin 64), W (ix2 k q) = W1 (ix2 k q))
    (p : Fin 10000) (q : Fin 64) : k0_pay1 (F := Ideal) X W (ix2 p q) = sup1 x W1 p q := by
  rw [Pay.pay1_apply]
  unfold sup1
  exact Finset.sum_congr rfl fun k _ => by rw [hX, hW]

/-- The activation payload over a row block that reads as row `row` of the adjacency, a support that reads as the first
    support and a bias row that reads as `b1`, at row `r` of the block: the hidden activations at row `row`. -/
theorem hid_of (A : Vec Ideal S400x10000 .f32) (S : Vec Ideal S10000x64 .f32) (b : Vec Ideal S1x64 .f32)
    (x : FVec Ideal ⟨2, ![10000, 128]⟩ .f32) (adj : FVec Ideal ⟨2, ![10000, 10000]⟩ .f32) (W1 : FVec Ideal ⟨2, ![128, 64]⟩ .f32) (b1 : FVec Ideal ⟨1, ![64]⟩ .f32)
    (row : Fin 10000) (r : Fin 400) (q : Fin 64)
    (hA : ∀ k : Fin 10000, A (ix2 r k) = adj (ix2 row k)) (hS : ∀ k : Fin 10000, S (ix2 k q) = sup1 x W1 k q)
    (hb : b (ix2 (0 : Fin 1) q) = b1 (ix1 q)) :
    k0_pay2 (F := Ideal) A S b (ix2 r q) = hid x adj W1 b1 row q := by
  rw [Pay.pay2_apply, hb]
  unfold hid
  exact congrArg (fun t => elu (t + b1 (ix1 q))) (Finset.sum_congr rfl fun k _ => by rw [hA, hS])

/-- A product of an array that reads as the hidden activations and one that reads as `W2` is the second support. -/
theorem sup2_of (H : Vec Ideal S10000x64 .f32) (W : Vec Ideal S64x64 .f32)
    (x : FVec Ideal ⟨2, ![10000, 128]⟩ .f32) (adj : FVec Ideal ⟨2, ![10000, 10000]⟩ .f32) (W1 : FVec Ideal ⟨2, ![128, 64]⟩ .f32) (b1 : FVec Ideal ⟨1, ![64]⟩ .f32)
    (W2 : FVec Ideal ⟨2, ![64, 64]⟩ .f32) (p : Fin 10000) (q : Fin 64)
    (hH : ∀ k : Fin 64, H (ix2 p k) = hid x adj W1 b1 p k) (hW : ∀ k : Fin 64, W (ix2 k q) = W2 (ix2 k q)) :
    k0_pay3 (F := Ideal) H W (ix2 p q) = sup2 x adj W1 b1 W2 p q := by
  rw [Pay.pay3_apply]
  unfold sup2
  exact Finset.sum_congr rfl fun k _ => by rw [hH, hW]

/-- The activation payload over a row block that reads as row `row` of the adjacency, a support that reads as the second
    support and a bias row that reads as `b2`, at row `r` of the block: the result at row `row`. -/
theorem outv_of (A : Vec Ideal S400x10000 .f32) (S : Vec Ideal S10000x64 .f32) (b : Vec Ideal S1x64 .f32)
    (x : FVec Ideal ⟨2, ![10000, 128]⟩ .f32) (adj : FVec Ideal ⟨2, ![10000, 10000]⟩ .f32) (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32)
    (row : Fin 10000) (r : Fin 400) (q : Fin 64)
    (hA : ∀ k : Fin 10000, A (ix2 r k) = adj (ix2 row k)) (hS : ∀ k : Fin 10000, S (ix2 k q) = sup2 x adj W1 b1 W2 k q)
    (hb : b (ix2 (0 : Fin 1) q) = b2 (ix1 q)) :
    k0_pay4 (F := Ideal) A S b (ix2 r q) = outv x adj W1 b1 W2 b2 row q := by
  rw [Pay.pay4_apply, hb]
  unfold outv
  exact congrArg (fun t => elu (t + b2 (ix1 q))) (Finset.sum_congr rfl fun k _ => by rw [hA, hS])

/-! ## The carried contents are the specification's layers -/

section
variable (m : (ℓ : Loc nD τ sig) → Buf (Elt Ideal) ℓ) (c : Dev nD)

/-- The first carried buffer's first contents are the first support. -/
theorem sup1C_apply (p : Fin 10000) (q : Fin 64) :
    Hand.sup1C (F := Ideal) m c (ix2 p q) = sup1 (m ((c : Thread nD τ).loc main_arg0)) (m ((c : Thread nD τ).loc main_arg2)) p q := by
  unfold Hand.sup1C
  exact sup1_of _ _ _ _ (fun p k => Blk.iblk1_apply m c Hand.t0 p k) (fun k q => Blk.iblk2_apply m c Hand.t0 k q) p q

/-- Row `p` lies in row block `p / 400`, at row `p % 400` of it. -/
theorem row_eq (p : Fin 10000) :
    (⟨400 * ((Hand.tRow p).val % 25) + (⟨p.val % 400, Nat.mod_lt _ (by omega)⟩ : Fin 400).val,
      by have := p.isLt; show 400 * ((p.val / 400) % 25) + p.val % 400 < 10000; omega⟩ : Fin 10000) = p := by
  apply Fin.ext
  have := p.isLt
  show 400 * ((p.val / 400) % 25) + p.val % 400 = p.val
  omega

/-- The second carried buffer's contents are the hidden activations. -/
theorem hidC_apply' (p : Fin 10000) (q : Fin 64) :
    Hand.hidC (F := Ideal) m c (ix2 p q) = hid (m ((c : Thread nD τ).loc main_arg0)) (m ((c : Thread nD τ).loc main_arg1)) (m ((c : Thread nD τ).loc main_arg2)) (m ((c : Thread nD τ).loc main_arg3)) p q := by
  rw [Hand.hidC_apply]
  refine hid_of _ _ _ _ _ _ _ p _ q (fun k => ?_) (fun k => sup1C_apply m c k q) (Blk.iblk3_apply m c (Hand.tRow p) q)
  refine (Blk.iblk0_apply m c (Hand.tRow p) _ k).trans ?_
  exact congrArg (fun row => (m ((c : Thread nD τ).loc main_arg1)) (ix2 row k)) (row_eq p)

/-- The first carried buffer's second contents are the second support. -/
theorem sup2C_apply (p : Fin 10000) (q : Fin 64) :
    Hand.sup2C (F := Ideal) m c (ix2 p q) = sup2 (m ((c : Thread nD τ).loc main_arg0)) (m ((c : Thread nD τ).loc main_arg1)) (m ((c : Thread nD τ).loc main_arg2)) (m ((c : Thread nD τ).loc main_arg3)) (m ((c : Thread nD τ).loc main_arg4)) p q := by
  unfold Hand.sup2C
  exact sup2_of _ _ _ _ _ _ _ p q (fun k => hidC_apply' m c p k) (fun k => Blk.iblk4_apply m c Hand.t25 k q)

/-- The result window's block at point `t` is rows `400·(t % 25) + r` of the result. -/
theorem outC_apply (t : Fin cfg0.N) (r : Fin 400) (q : Fin 64) :
    Hand.outC (F := Ideal) m c t (ix2 r q)
      = outv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (⟨400 * (t.val % 25) + r.val, by have := r.isLt; omega⟩ : Fin 10000) q := by
  unfold Hand.outC
  exact outv_of _ _ _ _ _ _ _ _ _ _ r q (fun k => Blk.iblk0_apply m c t r k) (fun k => sup2C_apply m c k q)
    (Blk.iblk5_apply m c t q)

end

end Cert.KernelIdeal.KVal

end
-- ==== Proof.KI.Final.lean ====
/-
  The kernel's run ends with the result array holding the two-layer graph convolution `G` of its argument arrays.
  At each layer-1 point the block the pipeline writes back is that point's 400-row block of `G` (the carried buffers
  hold the specification's supports and hidden activations; the point's payload is the result's rows); the 25 blocks
  written back cover the result array; the argument arrays end as they began.
-/
import proofs.«132794_g33578054320522_cont_8to1_b_1871_28_alg».proof.Proof.KI.Body
import proofs.«132794_g33578054320522_cont_8to1_b_1871_28_alg».proof.Proof.Blocks
import proofs.«132794_g33578054320522_cont_8to1_b_1871_28_alg».proof.Proof.KValue
import proofs.«132794_g33578054320522_cont_8to1_b_1871_28_alg».proof.Proof.Spec

set_option maxRecDepth 16384

noncomputable section

namespace Cert.KernelIdeal.KFinal

open Idealize.ShloMosaic Idealize.ShloMosaic.TcCoe Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ) (ρ : Dev nD → PrngReg)

/-- What a layer-1 point writes back is its block of `G`. -/
theorem flushed_eq (c : Dev nD) (t : Fin cfg0.N) (hf : (cfg0.win 6).flush t = true) :
    (Hand.dats m 0 c).flushed 6 t = ((cfg0.win 6).blk t).view.read (Elt Ideal) (Cert.GcnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  have ht : 25 ≤ t.val := (Blk.flush6_iff t).mp hf
  show (cfg0.win 6).cut (cfg0.grid.coords t) ((Hand.dats m 0 c).after 6 t) = _
  rw [Hand.after_6]
  funext y
  obtain ⟨r, q, rfl⟩ : ∃ (r : Fin 400) (q : Fin 64), y = ix2 r q := ⟨y 0, y 1, eq_ix2 y⟩
  refine Eq.trans ?_ (Blk.blk6_read_apply _ t ht r q).symm
  rw [Cert.GcnSpec.G_apply]
  exact KVal.outC_apply m c t r q

/-- The result array after the run. -/
theorem final (c : Dev nD) : (Hand.dats m 0 c).arrAt 6 cfg0.N = (Cert.GcnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  Blk.arrAt6_eq (Hand.dats m 0 c) _ (fun t hf => flushed_eq m c t hf)

/-- Every weakly fair execution of the kernel's program terminates with the result array at `G` of the argument arrays,
    which end unchanged. -/
theorem run : θ_run (defs (F := Ideal)) (onTc (τ := τ) (main (F := Ideal))) ⟨m, fun _ => 0, ρ⟩ (fun r => ∀ c : Dev nD,
      r.2.mem ((c.tc : Thread nD τ).loc main_v0) = (Cert.GcnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 1).trans (((Hand.dats m 0 c).arrAt_in 1 rfl _).trans ((Hand.A_eq m c 1).trans (V_main_arg0 m c))),
      ((h c).1 0).trans (((Hand.dats m 0 c).arrAt_in 0 rfl _).trans ((Hand.A_eq m c 0).trans (V_main_arg1 m c))),
      ((h c).1 2).trans (((Hand.dats m 0 c).arrAt_in 2 rfl _).trans ((Hand.A_eq m c 2).trans (V_main_arg2 m c))),
      ((h c).2 main_arg3 (Pipeline.mem_restRefs_of main_arg3 (by decide) (by decide))).trans (V_main_arg3 m c),
      ((h c).1 4).trans (((Hand.dats m 0 c).arrAt_in 4 rfl _).trans ((Hand.A_eq m c 4).trans (V_main_arg4 m c))),
      ((h c).2 main_arg5 (Pipeline.mem_restRefs_of main_arg5 (by decide) (by decide))).trans (V_main_arg5 m c)⟩)
    (Hand.run_main m ρ)

end Cert.KernelIdeal.KFinal

end
-- ==== Proof.RefRun.lean ====
/-
  The reference program's @main as the list of its forty host operations — the calls of the exponential linear unit
  written out at their call sites, each with the two selects it calls in turn — and the run of that list: every
  weakly fair execution terminates with the result buffer at the operations' composed term of the six argument
  arrays, the arguments unchanged.
-/
import proofs.«132794_g33578054320522_cont_8to1_b_1871_28_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty operations, in order: five for a layer's affine map (two products, the bias broadcast twice, the
    sum), fifteen for the unit applied to it (the zero splat and the comparison, twice; the inner select's three
    operations at the zero converted and broadcast; the exponential minus one; the one splat and the product; the
    outer select), and the same twenty again for the second layer. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0x00000000#32),
    TRef.unary main_call0.cst main_call0.v0 (broadcastInDim S10000x64 ![] bcast_S_S10000x64),
    TRef.binary (.of main_v4) main_call0.v0 main_call0.v1 (cmpf .ogt),
    TRef.nullary main_call0.cst_0 (constant S_ .f32 0x00000000#32),
    TRef.unary main_call0.cst_0 main_call0.v2 (broadcastInDim S10000x64 ![] bcast_S_S10000x64),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x64 ![] bcast_S_S10000x64),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S10000x64 ![] bcast_S_S10000x64),
    TRef.binary main_call0.v6 main_call0.v5 main_call0.v7 mulf,
    TRef.ternary main_call0.v1 (.of main_v4) main_call0.v7 main_call0.call1.v0 select,
    binary main_v5 main_arg4 main_v6 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v6 main_v7 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    TRef.nullary main_call1.cst (constant S_ .f32 0x00000000#32),
    TRef.unary main_call1.cst main_call1.v0 (broadcastInDim S10000x64 ![] bcast_S_S10000x64),
    TRef.binary (.of main_v10) main_call1.v0 main_call1.v1 (cmpf .ogt),
    TRef.nullary main_call1.cst_0 (constant S_ .f32 0x00000000#32),
    TRef.unary main_call1.cst_0 main_call1.v2 (broadcastInDim S10000x64 ![] bcast_S_S10000x64),
    TRef.binary (.of main_v10) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x64 ![] bcast_S_S10000x64),
    TRef.ternary main_call1.v3 main_call1.call0.v1 (.of main_v10) main_call1.call0.v2 select,
    TRef.unary main_call1.call0.v2 main_call1.v5 Host.expm1,
    TRef.nullary main_call1.cst_2 (constant S_ .f32 0x3F800000#32),
    TRef.unary main_call1.cst_2 main_call1.v6 (broadcastInDim S10000x64 ![] bcast_S_S10000x64),
    TRef.binary main_call1.v6 main_call1.v5 main_call1.v7 mulf,
    TRef.ternary main_call1.v1 (.of main_v10) main_call1.v7 main_call1.call1.v0 select ]

-- forty binds re-associated: the rewrite under the chain recurses once per statement
set_option maxRecDepth 4096 in
/-- @main is that straight line: the functions' definitions unfolded at their calls, both sides are one chain of
    host steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub .., binary_bufs_sub .., ternary_bufs_sub ..,
    binary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub .., binary_bufs_sub .., ternary_bufs_sub ..⟩

/-- The unit as the program computes it on a whole array: where the argument exceeds the zero splat the argument,
    elsewhere the one splat times the exponential minus one of the argument with its positive entries replaced by
    zero. -/
def eluT (v : (⟨S10000x64, .f32⟩ : BufTy).Contents (Elt F)) : (⟨S10000x64, .f32⟩ : BufTy).Contents (Elt F) :=
  select (cmpf .ogt v (broadcastInDim S10000x64 ![] bcast_S_S10000x64 (constant S_ .f32 0x00000000#32))) v
    (mulf (broadcastInDim S10000x64 ![] bcast_S_S10000x64 (constant S_ .f32 0x3F800000#32))
      (Host.expm1 (select (cmpf .ogt v (broadcastInDim S10000x64 ![] bcast_S_S10000x64 (constant S_ .f32 0x00000000#32)))
        (broadcastInDim S10000x64 ![] bcast_S_S10000x64 (id (constant S_ .f32 0x00000000#32) : (⟨S_, .f32⟩ : BufTy).Contents (Elt F))) v)))

/-- One layer on whole arrays: the adjacency times the support, plus the bias broadcast along the rows, through the
    unit. -/
def layer (adj : (⟨S10000x10000, .f32⟩ : BufTy).Contents (Elt F)) (sup : (⟨S10000x64, .f32⟩ : BufTy).Contents (Elt F)) (b : (⟨S64, .f32⟩ : BufTy).Contents (Elt F)) : (⟨S10000x64, .f32⟩ : BufTy).Contents (Elt F) :=
  eluT (addf (Host.dotGeneral dot_S10000x10000_S10000x64_S10000x64_1_0_0_1_n_n none adj sup)
    (broadcastInDim S10000x64 ![0, 1] bcast_S1x64_S10000x64_0_1 (broadcastInDim S1x64 ![1] bcast_S64_S1x64_1 b)))

/-- The forty operations composed: the result array as a term of the six argument arrays. -/
def out (x : (⟨S10000x128, .f32⟩ : BufTy).Contents (Elt F)) (adj : (⟨S10000x10000, .f32⟩ : BufTy).Contents (Elt F)) (W1 : (⟨S128x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S10000x64, .f32⟩ : BufTy).Contents (Elt F) :=
  layer adj (Host.dotGeneral dot_S10000x64_S64x64_S10000x64_1_0_0_1_n_n none
    (layer adj (Host.dotGeneral dot_S10000x128_S128x64_S10000x64_1_0_0_1_n_n none x W1) b1) W2) b2

/-- The fold of the forty operations at the result buffer is the composed term of the launch contents. -/
theorem out_eq (V : Valuation τ sig (Elt F)) :
    after ops V (main_v11 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of @main
    terminates with the result buffer at the operations' composed term of the six argument arrays, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference's composed term is the two-layer graph convolution `Cert.GcnSpec.G`, index by index: each product is
  the sum over the contracted coordinate, the bias broadcast twice reads the bias at the column, and the unit as the
  program computes it — a select on the sign around one times the exponential minus one of the argument with its
  positive entries zeroed — is the exponential linear unit at every extended real. With the run of the forty
  operations this gives the program's run ending at `G` of the launch contents.
-/
import proofs.«132794_g33578054320522_cont_8to1_b_1871_28_alg».proof.Proof.RefRun
import proofs.«132794_g33578054320522_cont_8to1_b_1871_28_alg».proof.Proof.Spec
import Idealize.ShloMosaic.Lib.StackMember
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Cert.GcnSpec
open Idealize.ShloMosaic Idealize.ShloMosaic.ValueIdx Idealize.ShloMosaic.TcCoe Idealize.SL.Sem Idealize.ShloMosaic.StableHlo

/-! ## The operations at an index -/

/-- A product of an M×K by a K×N matrix, contracting the left operand's columns with the right operand's rows, read
    at row `a` and column `b`: the sum over the contracted coordinate of the products of the entries. -/
theorem dot_apply {M K N : Nat} (w : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) (a : Fin M) (b : Fin N) :
    Host.dotGeneral (F := Ideal) (⟨[1], [0], [0], [1], [], [], w⟩ : DotDims ⟨2, ![M, K]⟩ ⟨2, ![K, N]⟩ ⟨2, ![M, N]⟩) none A B (ix2 a b)
      = ∑ c : Fin K, A (ix2 a c) * B (ix2 c b) :=
  StackMember.dotGeneral_plain_apply none A B a b

/-- The unit on one extended real, over the three splats' values: where `t` exceeds `z = 0` the select gives `t`;
    elsewhere the inner select gives `t` again and `1 · (e^t − 1) = e^t − 1`. No finiteness is asked of `t`. -/
theorem elu_scalar (t z o zz : EReal) (hz : z = 0) (ho : o = 1) (hzz : zz = 0) :
    Scalar.select (Ideal.cmp .ogt t z) t (o * (Ideal.exp (Scalar.select (Ideal.cmp .ogt t z) zz t) - 1)) = elu t := by
  subst hz ho hzz
  unfold elu
  by_cases h : (0 : EReal) < t
  · have hc : Ideal.cmp .ogt t 0 = 1#1 := by simp [Ideal.cmp, h]
    rw [hc, select_one, if_pos h]
  · have hc : Ideal.cmp .ogt t 0 = 0#1 := by simp [Ideal.cmp, h]
    rw [hc, select_zero, select_zero, if_neg h, one_mul]

/-- The zero splat reads zero. -/
theorem zero_splat_apply (j : S10000x64.Idx) :
    broadcastInDim S10000x64 ![] bcast_S_S10000x64 (constant (F := Ideal) S_ .f32 0x00000000#32) j = 0 := by
  rw [broadcastInDim_scalar_apply, constant_apply, Ideal.ofBits_zero_f32]

/-- The one splat reads one. -/
theorem one_splat_apply (j : S10000x64.Idx) :
    broadcastInDim S10000x64 ![] bcast_S_S10000x64 (constant (F := Ideal) S_ .f32 0x3F800000#32) j = 1 := by
  rw [broadcastInDim_scalar_apply, constant_apply, Ideal.ofBits_one_f32]

/-- The unit as the program computes it, read at an index, is the exponential linear unit of the entry. -/
theorem eluT_apply (v : FVec Ideal S10000x64 .f32) (j : S10000x64.Idx) : eluT (F := Ideal) v j = elu (v j) :=
  elu_scalar (v j) _ _ _ (zero_splat_apply j) (one_splat_apply j) (zero_splat_apply j)

/-- The bias broadcast to one row and then along the rows reads the bias at the column. -/
theorem bias_apply (b : FVec Ideal S64 .f32) (p : Fin 10000) (q : Fin 64) :
    broadcastInDim S10000x64 ![0, 1] bcast_S1x64_S10000x64_0_1 (broadcastInDim S1x64 ![1] bcast_S64_S1x64_1 b) (ix2 p q) = b (ix1 q) := by
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- One layer read at row `p`, column `q`: the unit of the row of the adjacency times the column of the support, plus
    the bias at the column. -/
theorem layer_apply (adj : FVec Ideal S10000x10000 .f32) (sup : FVec Ideal S10000x64 .f32) (b : FVec Ideal S64 .f32) (p : Fin 10000) (q : Fin 64) :
    layer (F := Ideal) adj sup b (ix2 p q) = elu ((∑ k : Fin 10000, adj (ix2 p k) * sup (ix2 k q)) + b (ix1 q)) := by
  unfold layer
  rw [eluT_apply, addf_apply, bias_apply]
  exact congrArg (fun t => elu (t + b (ix1 q))) (dot_apply _ adj sup p q)

/-! ## The composed term is the specification -/

section
variable (x : FVec Ideal S10000x128 .f32) (adj : FVec Ideal S10000x10000 .f32) (W1 : FVec Ideal S128x64 .f32) (b1 : FVec Ideal S64 .f32)
  (W2 : FVec Ideal S64x64 .f32) (b2 : FVec Ideal S64 .f32)

/-- The first layer's activations, as the program composes them, are the specification's. -/
theorem hid_eq (p : Fin 10000) (q : Fin 64) :
    layer (F := Ideal) adj (Host.dotGeneral dot_S10000x128_S128x64_S10000x64_1_0_0_1_n_n none x W1) b1 (ix2 p q) = hid x adj W1 b1 p q := by
  rw [layer_apply]
  unfold hid sup1
  refine congrArg (fun t => elu (t + b1 (ix1 q))) (Finset.sum_congr rfl fun k _ => congrArg (adj (ix2 p k) * ·) ?_)
  exact dot_apply _ x W1 k q

/-- The composed term is `G` of the six argument arrays. -/
theorem out_eq_G : out (F := Ideal) x adj W1 b1 W2 b2 = G x adj W1 b1 W2 b2 := by
  funext j
  obtain ⟨p, q, rfl⟩ : ∃ (p : Fin 10000) (q : Fin 64), j = ix2 p q := ⟨j 0, j 1, eq_ix2 j⟩
  rw [G_apply]
  unfold out outv sup2
  rw [layer_apply]
  refine congrArg (fun t => elu (t + b2 (ix1 q))) (Finset.sum_congr rfl fun k _ => congrArg (adj (ix2 p k) * ·) ?_)
  refine (dot_apply _ _ W2 k q).trans (Finset.sum_congr rfl fun k' _ => congrArg (· * W2 (ix2 k' q)) ?_)
  exact hid_eq x adj W1 b1 k k'

end

/-! ## The run -/

/-- On every device, from any memory with zero counters: every weakly fair execution of the reference's @main
    terminates with the result buffer at `G` of the six argument arrays' launch contents, and the arguments
    unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v11) = Cert.GcnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1).trans (out_eq_G _ _ _ _ _ _), (h c).2⟩) (RefRun.run (F := Ideal) m ρ)

end Cert.ReferenceIdeal.RefValue

end
-- ==== Proof.lean ====
/-
  A two-layer graph convolution on a dense adjacency matrix,
      h1 = elu (adj · (x · W1) + b1),   out = elu (adj · (h1 · W2) + b2),
  computed by ONE kernel on a 2 × 25 grid against the plain host program.

  The kernel keeps two [10000, 64] buffers between grid points. At the first point it stores the support x·W1 in the
  first; at each layer-0 point it computes 400 rows of h1 from its adjacency row block and that support and stores them
  in the second; at the first layer-1 point it replaces the support by h1·W2; at each layer-1 point it computes 400
  rows of the result from its adjacency row block and that support. During layer 0 the result window is left
  untouched and is never written back; in layer 1 every point writes its own row block, and the 25 blocks tile the
  result. So the result array ends holding, row by row, exactly the specification `G` (Proof/Spec.lean).

  On the extended reals both programs compute `G` for EVERY input: each matrix product is the same sum over the
  contracted index in both (a zero accumulator adds nothing), the bias is the same row read at the column, and the two
  spellings of elu agree everywhere — for 0 < v both are v; otherwise min v 0 = v on one side and the inner select
  gives v on the other, and e^v − 1 is multiplied by one. No law that needs finiteness is used, so the precondition is
  never opened.

  The three frames: each kernel program's from its body obligation, which holds at any float instance; the reference's
  from its run with the result dropped. The idealization rewrote nothing, so there is nothing to preserve.
-/
import proofs.«132794_g33578054320522_cont_8to1_b_1871_28_alg».proof.Defs
import proofs.«132794_g33578054320522_cont_8to1_b_1871_28_alg».proof.Proof.KB.Body
import proofs.«132794_g33578054320522_cont_8to1_b_1871_28_alg».proof.Proof.KI.Final
import proofs.«132794_g33578054320522_cont_8to1_b_1871_28_alg».proof.Proof.RefValue
import proofs.«132794_g33578054320522_cont_8to1_b_1871_28_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.RefValue.run m ρ)

/-- Both runs end with the result at `G` of their argument arrays, and the argument arrays agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KFinal.run m ρ, ?_⟩
  refine (θ_run _ _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
